-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S200000x64 .f32) (main_arg1 : FVec F S27x64x64 .f32) (main_arg2 : FVec F S64 .f32) (main_arg3 : FVec F S64 .f32) (main_arg4 : FVec F S64 .f32) (main_arg5 : IVec S27x100000 32) (main_arg6 : IVec S27x100000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S1x20000x64 : Shape := ⟨3, ![1, 20000, 64]⟩
abbrev S1x64x64 : Shape := ⟨3, ![1, 64, 64]⟩
abbrev S20000x64 : Shape := ⟨2, ![20000, 64]⟩
abbrev S64x64 : Shape := ⟨2, ![64, 64]⟩
abbrev S2700000 : Shape := ⟨1, ![2700000]⟩
abbrev S2700000x64 : Shape := ⟨2, ![2700000, 64]⟩
abbrev S2700000x1 : Shape := ⟨2, ![2700000, 1]⟩
abbrev S1x64 : Shape := ⟨2, ![1, 64]⟩
abbrev S10000x64 : Shape := ⟨2, ![10000, 64]⟩

abbrev nBuf : Space → Nat
  | .hbm => 49
  | .vmem => 20
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S27x100000, .i32⟩
  | .hbm, ⟨6, _⟩ => ⟨S27x100000, .i32⟩
  | .hbm, ⟨7, _⟩ => ⟨S200000x64, .bf16⟩
  | .hbm, ⟨8, _⟩ => ⟨S27x64x64, .bf16⟩
  | .hbm, ⟨9, _⟩ => ⟨S_, .i32⟩
  | .hbm, ⟨10, _⟩ => ⟨S27x100000, .i32⟩
  | .hbm, ⟨11, _⟩ => ⟨S27x100000, .i1⟩
  | .hbm, ⟨12, _⟩ => ⟨S_, .i32⟩
  | .hbm, ⟨13, _⟩ => ⟨S27x100000, .i32⟩
  | .hbm, ⟨14, _⟩ => ⟨S27x100000, .i32⟩
  | .hbm, ⟨15, _⟩ => ⟨S27x100000, .i32⟩
  | .hbm, ⟨16, _⟩ => ⟨S27x100000x1, .i32⟩
  | .hbm, ⟨17, _⟩ => ⟨S27x100000x64, .bf16⟩
  | .hbm, ⟨18, _⟩ => ⟨S27x100000x64, .f32⟩
  | .hbm, ⟨19, _⟩ => ⟨S_, .f32⟩
  | .hbm, ⟨20, _⟩ => ⟨S200000x64, .f32⟩
  | .hbm, ⟨21, _⟩ => ⟨S2700000, .i32⟩
  | .hbm, ⟨22, _⟩ => ⟨S2700000x64, .f32⟩
  | .hbm, ⟨23, _⟩ => ⟨S_, .i32⟩
  | .hbm, ⟨24, _⟩ => ⟨S2700000, .i32⟩
  | .hbm, ⟨25, _⟩ => ⟨S2700000, .i1⟩
  | .hbm, ⟨26, _⟩ => ⟨S_, .i32⟩
  | .hbm, ⟨27, _⟩ => ⟨S2700000, .i32⟩
  | .hbm, ⟨28, _⟩ => ⟨S2700000, .i32⟩
  | .hbm, ⟨29, _⟩ => ⟨S2700000, .i32⟩
  | .hbm, ⟨30, _⟩ => ⟨S2700000x1, .i32⟩
  | .hbm, ⟨31, _⟩ => ⟨S200000x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S_, .f32⟩
  | .hbm, ⟨46, _⟩ => ⟨S1x64, .f32⟩
  | .hbm, ⟨47, _⟩ => ⟨S1x64, .f32⟩
  | .hbm, ⟨48, _⟩ => ⟨S200000x64, .f32⟩
  | .local _ .vmem, ⟨0, _⟩ => ⟨S1x20000x64, .bf16⟩
  | .local _ .vmem, ⟨1, _⟩ => ⟨S1x20000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x20000x64, .f32⟩
  | .local _ .vmem, ⟨5, _⟩ => ⟨S1x20000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x20000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bitsLt_bf16_f32 : FTy.bits .bf16 < FTy.bits .f32
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  inb_S1x20000x64_S1x20000x64_0_0_0 : ∀ a, (![0, 0, 0] : Fin 3 → Nat) a + S1x20000x64.size a ≤ S1x20000x64.size a
  h_S1x20000x64 : 0 < S1x20000x64.numel
  shapeCasts_S1x20000x64_S20000x64 : S1x20000x64.ShapeCasts S20000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S20000x64_S1x20000x64 : S20000x64.ShapeCasts S1x20000x64
  bcast_S_S200000x64 : S_.BroadcastsInDim S200000x64 (![] : Fin 0 → Fin S200000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  gather_S200000x64_S27x100000x1_S27x100000x64_2_0_n_n_0_2_164_wf : GatherDims.WF S200000x64 S27x100000x1 S27x100000x64 [2] [0] [] [0] [] 2 ![1, 64]
  dot_S20000x64_S64x64_S20000x64_1_0_0_1_n_n_wf : DotDims.WF S20000x64 S64x64 S20000x64 [1] [0] [0] [1] [] []
  scatter_S200000x64_S2700000x1_S2700000x64_1_0_0_1_wf : ScatterDims.WF S200000x64 S2700000x1 S2700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x64.size a ≤ S27x100000x64.size a
  hwx0_0 : ∀ i : grid0.Coords, EltTy.bits .bf16 = 32 ∨ (Rect.block (s := S27x100000x64) S1x20000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20000x64.size a ≤ S27x100000x64.size a
  hwx0_2 : ∀ i : grid0.Coords, EltTy.bits .f32 = 32 ∨ (Rect.block (s := S27x100000x64) S1x20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S200000x64.size a
  hwx2_6 : ∀ i : grid2.Coords, EltTy.bits .f32 = 32 ∨ (Rect.block (s := S200000x64) S10000x64.size (cc2_transform_6 i) (hinb2_6 i)).WholeWords (EltTy.packing .f32)

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S200000x64_S2700000x1_S2700000x64_1_0_0_1 : ScatterDims S200000x64 S2700000x1 S2700000x64 where
  updateWindowDims := [1]
  insertedWindowDims := [0]
  scatterDimsToOperandDims := [0]
  indexVectorDim := 1
  wf := scatter_S200000x64_S2700000x1_S2700000x64_1_0_0_1_wf

abbrev win0_0 : Pipeline.Window sig grid0 :=
  Pipeline.Window.ofSpec (Memref.whole main_v8) S1x20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S2700000 : Shape := ⟨1, ![2700000]⟩
abbrev S2700000x64 : Shape := ⟨2, ![2700000, 64]⟩
abbrev S2700000x1 : Shape := ⟨2, ![2700000, 1]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S27x100000, .i32⟩
  | .hbm, ⟨6, _⟩ => ⟨S27x100000, .i32⟩
  | .hbm, ⟨7, _⟩ => ⟨S_, .i32⟩
  | .hbm, ⟨8, _⟩ => ⟨S27x100000, .i32⟩
  | .hbm, ⟨9, _⟩ => ⟨S27x100000, .i1⟩
  | .hbm, ⟨10, _⟩ => ⟨S_, .i32⟩
  | .hbm, ⟨11, _⟩ => ⟨S27x100000, .i32⟩
  | .hbm, ⟨12, _⟩ => ⟨S27x100000, .i32⟩
  | .hbm, ⟨13, _⟩ => ⟨S27x100000, .i32⟩
  | .hbm, ⟨14, _⟩ => ⟨S27x100000x1, .i32⟩
  | .hbm, ⟨15, _⟩ => ⟨S27x100000x64, .f32⟩
  | .hbm, ⟨16, _⟩ => ⟨S27x100000x64, .f32⟩
  | .hbm, ⟨17, _⟩ => ⟨S_, .f32⟩
  | .hbm, ⟨18, _⟩ => ⟨S200000x64, .f32⟩
  | .hbm, ⟨19, _⟩ => ⟨S2700000, .i32⟩
  | .hbm, ⟨20, _⟩ => ⟨S2700000x64, .f32⟩
  | .hbm, ⟨21, _⟩ => ⟨S_, .i32⟩
  | .hbm, ⟨22, _⟩ => ⟨S2700000, .i32⟩
  | .hbm, ⟨23, _⟩ => ⟨S2700000, .i1⟩
  | .hbm, ⟨24, _⟩ => ⟨S_, .i32⟩
  | .hbm, ⟨25, _⟩ => ⟨S2700000, .i32⟩
  | .hbm, ⟨26, _⟩ => ⟨S2700000, .i32⟩
  | .hbm, ⟨27, _⟩ => ⟨S2700000, .i32⟩
  | .hbm, ⟨28, _⟩ => ⟨S2700000x1, .i32⟩
  | .hbm, ⟨29, _⟩ => ⟨S200000x64, .f32⟩
  | .hbm, ⟨30, _⟩ => ⟨S1x64, .f32⟩
  | .hbm, ⟨31, _⟩ => ⟨S200000x64, .f32⟩
  | .hbm, ⟨32, _⟩ => ⟨S200000x64, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S1x64, .f32⟩
  | .hbm, ⟨39, _⟩ => ⟨S200000x64, .f32⟩
  | .hbm, ⟨40, _⟩ => ⟨S200000x64, .f32⟩
  | .hbm, ⟨41, _⟩ => ⟨S200000x64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S1x64, .f32⟩
  | .hbm, ⟨48, _⟩ => ⟨S200000x64, .f32⟩
  | .hbm, ⟨49, _⟩ => ⟨S200000x64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S200000x64, .f32⟩
  | .hbm, ⟨56, _⟩ => ⟨S200000x64, .f32⟩
  | .hbm, ⟨57, _⟩ => ⟨S1x64, .f32⟩
  | .hbm, ⟨58, _⟩ => ⟨S200000x64, .f32⟩
  | .hbm, ⟨59, _⟩ => ⟨S200000x64, .f32⟩
  | .hbm, ⟨60, _⟩ => ⟨S1x64, .f32⟩
  | .hbm, ⟨61, _⟩ => ⟨S200000x64, .f32⟩
  | .hbm, ⟨62, _⟩ => ⟨S200000x64, .f32⟩
  | .hbm, ⟨63, _⟩ => ⟨S_, .f32⟩
  | .hbm, ⟨64, _⟩ => ⟨S200000x64, .f32⟩
  | .hbm, ⟨65, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  bcast_S_S200000x64 : S_.BroadcastsInDim S200000x64 (![] : Fin 0 → Fin S200000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  reducesTo_S200000x64_S64_d0 : S200000x64.ReducesTo [0] S64
  h_S_ : 0 < S_.numel
  bcast_S_S64 : S_.BroadcastsInDim S64 (![] : Fin 0 → Fin S64.rank)
  gather_S200000x64_S27x100000x1_S27x100000x64_2_0_n_n_0_2_164_wf : GatherDims.WF S200000x64 S27x100000x1 S27x100000x64 [2] [0] [] [0] [] 2 ![1, 64]
  dot_S27x100000x64_S27x64x64_S27x100000x64_2_1_1_2_0_0_wf : DotDims.WF S27x100000x64 S27x64x64 S27x100000x64 [2] [1] [1] [2] [0] [0]
  scatter_S200000x64_S2700000x1_S2700000x64_1_0_0_1_wf : ScatterDims.WF S200000x64 S2700000x1 S2700000x64 [1] [0] [0] 1

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S27x100000x64_S27x64x64_S27x100000x64_2_1_1_2_0_0 : DotDims S27x100000x64 S27x64x64 S27x100000x64 where
  lhsContracting := [2]
  rhsContracting := [1]
  lhsNonContracting := [1]
  rhsNonContracting := [2]
  lhsBatch := [0]
  rhsBatch := [0]
  wf := dot_S27x100000x64_S27x64x64_S27x100000x64_2_1_1_2_0_0_wf
def scatter_S200000x64_S2700000x1_S2700000x64_1_0_0_1 : ScatterDims S200000x64 S2700000x1 S2700000x64 where
  updateWindowDims := [1]
  insertedWindowDims := [0]
  scatterDimsToOperandDims := [0]
  indexVectorDim := 1
  wf := scatter_S200000x64_S2700000x1_S2700000x64_1_0_0_1_wf

class Facts : Prop extends Facts₀ where

variable [Facts]
-- ==== Proof.KernelRun.lean ====
/-
  The idealized kernel's run with its RESULT array named.

  The program is three kernel regions among four stretches of host operations.  The buffer contents at the
  last segment boundary are a fold through the program: each host stretch applies its operations' pure
  functions, each region replaces its arrays by what its write-backs leave.  Every weakly fair execution
  terminates with every unscoped buffer at that last boundary's contents; in particular the result array
  holds the last boundary's contents at the result's reference, and the arguments are as launched.
-/
import proofs.«116026_j56392920596826_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v32 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Result

end
-- ==== Proof.Gemm.lean ====
/-
  The first kernel region (the per-offset matrix product), read as one function of the arrays it is entered with.

  The grid is 27 × 5: point (k, p) stages rows 20000·p … 20000·p + 19999 of offset k's gathered features
  ([27, 100000, 64]), the whole 64 × 64 weight of offset k, multiplies them into a zero accumulator and writes the
  product back to the same rows of the [27, 100000, 64] result.  Over the extended reals the product into a zero
  accumulator is the plain sum over the contracted axis, so the result array at (k, r, d) is the sum over c of
  gathered(k, r, c) · weight(k, c, d).
-/
import proofs.«116026_j56392920596826_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx
open Idealize.ShloMosaic.Pipeline (Dat)

theorem zeros3 : (![0, 0, 0] : Fin 3 → Nat) = fun _ => 0 := funext fun a => by fin_cases a <;> rfl

/-- The batched product: at (k, r, d) the sum over c of a(k, r, c) · w(k, c, d). -/
def batchedProduct (a : S27x100000x64.Idx → EReal) (w : S27x64x64.Idx → EReal) : S27x100000x64.Idx → EReal :=
  fun i => ∑ c : Fin 64, a (ix3 (i 0 : Fin 27) (i 1 : Fin 100000) c) * w (ix3 (i 0 : Fin 27) c (i 2 : Fin 64))

/-- The body's stored value at row q, column d of the block: the sum over the contracted axis. -/
theorem pay0_apply (v0 : Vec Ideal S1x20000x64 .bf16) (v2 : Vec Ideal S1x64x64 .bf16) (u : Fin 1) (q : Fin 20000) (d : Fin 64) :
    k0_pay1 v0 v2 (ix3 u q d) = ∑ c : Fin 64, v0 (ix3 (0 : Fin 1) q c) * v2 (ix3 (0 : Fin 1) c d) := by
  unfold k0_pay1
  rw [shapeCast_ab_1ab_apply]
  simp only [matmul]
  rw [Ideal.matmul_constant_zero_apply, ← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 q d) ((contrEquiv1 dot_S20000x64_S64x64_S20000x64_1_0_0_1_n_n 64 rfl rfl).symm k) = ix2 q k :=
    funext fun a => Fin.ext (by
      match a with
      | ⟨0, _⟩ => rfl
      | ⟨1, _⟩ => exact (dot_S20000x64_S64x64_S20000x64_1_0_0_1_n_n.lhsIdx_val_of_single rfl _ _).trans hk)
  have er : dot_S20000x64_S64x64_S20000x64_1_0_0_1_n_n.rhsIdx (ix2 q d) ((contrEquiv1 dot_S20000x64_S64x64_S20000x64_1_0_0_1_n_n 64 rfl rfl).symm k) = ix2 k d :=
    funext fun a => Fin.ext (by
      match a with
      | ⟨0, _⟩ => exact (dot_S20000x64_S64x64_S20000x64_1_0_0_1_n_n.rhsIdx_val_of_single rfl _ _).trans hk
      | ⟨1, _⟩ => rfl)
  rw [el, er, shapeCast_1ab_ab_apply, shapeCast_1ab_ab_apply]

/-- One element of the block: the body's stored value at block index j is the batched product at the array index i it
    is written back to, when the staged rows and the staged weight are the arrays' at offset i 0. -/
theorem block0_eq (x0 : Vec Ideal S1x20000x64 .bf16) (x1 : Vec Ideal S1x64x64 .bf16)
    (a : S27x100000x64.Idx → EReal) (w : S27x64x64.Idx → EReal) (j : S1x20000x64.Idx) (i : S27x100000x64.Idx)
    (hd : (i 2).val = (j 2).val)
    (h0 : ∀ c : Fin 64, x0 (ix3 (0 : Fin 1) (j 1 : Fin 20000) c) = a (ix3 (i 0 : Fin 27) (i 1 : Fin 100000) c))
    (h1 : ∀ (c : Fin 64) (d : Fin 64), x1 (ix3 (0 : Fin 1) c d) = w (ix3 (i 0 : Fin 27) c d)) :
    k0_pay1 x0 x1 j = batchedProduct a w i := by
  obtain ⟨u, q, d, rfl⟩ : ∃ (u : Fin 1) (q : Fin 20000) (d : Fin 64), j = ix3 u q d := ⟨j 0, j 1, j 2, eq_ix3 j⟩
  rw [pay0_apply]
  unfold batchedProduct
  have hid : (i 2 : Fin 64) = d := Fin.ext hd
  refine Finset.sum_congr rfl fun c _ => ?_
  rw [h0 c, h1 c d, hid]

variable (V : (c : Dev nD) → (b : Ref sig .tc) → Buf (Elt Ideal) ((c : Thread nD τ).loc b))

/-- The printed index maps over the grid: point t is (t / 5, t % 5); the gathered rows' and the result's block index is
    (t / 5, t % 5, 0), the weight's (t / 5, 0, 0). -/
theorem index_facts0 : ∀ t : Fin cfg0.N, win0_0.index t (0 : Fin 3) = t.val / 5 ∧ win0_0.index t (1 : Fin 3) = t.val % 5
    ∧ win0_0.index t (2 : Fin 3) = 0
    ∧ win0_2.index t (0 : Fin 3) = t.val / 5 ∧ win0_2.index t (1 : Fin 3) = t.val % 5 ∧ win0_2.index t (2 : Fin 3) = 0
    ∧ win0_1.index t (0 : Fin 3) = t.val / 5 ∧ win0_1.index t (1 : Fin 3) = 0 ∧ win0_1.index t (2 : Fin 3) = 0 :=
  (by decide +kernel : ∀ t : Fin grid0.N, _)

/-- WHAT POINT t WRITES BACK is block t of the batched product of the arrays the region is entered with. -/
theorem flushed0_eq (c : Dev nD) (t : Fin cfg0.N) :
    (dat0 V c).flushed 2 t = ((cfg0.win 2).blk t).view.read (Elt Ideal) (batchedProduct (V c main_v8) (V c main_v1)) := by
  show (cfg0.win 2).cut (grid0.coords t) ((dat0 V c).after 2 t) = _
  rw [after0_2]
  unfold out0_2
  rw [View.canon_unit_zero zeros3]
  simp only [View.ld_unit_zero (S := S1x20000x64) zeros3, View.ld_unit_zero (S := S1x64x64) zeros3]
  obtain ⟨e00, e01, e02, e20, e21, e22, e10, e11, e12⟩ := index_facts0 t
  funext j
  show k0_pay1 (iblk0 V c 0 t) (iblk0 V c 1 t) j = batchedProduct (V c main_v8) (V c main_v1) (((cfg0.win 2).blk t).view.emb j)
  refine block0_eq _ _ _ _ j _ ?_ ?_ ?_
  · show win0_2.index t (2 : Fin 3) * 64 + 1 * (j 2).val = (j 2).val
    rw [e22]; omega
  · intro cc
    show V c main_v8 (((cfg0.win 0).blk t).view.emb (ix3 (0 : Fin 1) (j 1 : Fin 20000) cc)) = V c main_v8 _
    refine congrArg _ (funext fun a => Fin.ext ?_)
    match a with
    | ⟨0, _⟩ => show win0_0.index t (0 : Fin 3) * 1 + 1 * 0 = win0_2.index t (0 : Fin 3) * 1 + 1 * (j 0).val; have hj0 : (j 0).val < 1 := (j 0).isLt; rw [e00, e20]; omega
    | ⟨1, _⟩ => show win0_0.index t (1 : Fin 3) * 20000 + 1 * (j 1).val = win0_2.index t (1 : Fin 3) * 20000 + 1 * (j 1).val; rw [e01, e21]
    | ⟨2, _⟩ => show win0_0.index t (2 : Fin 3) * 64 + 1 * cc.val = cc.val; rw [e02]; omega
  · intro cc dd
    show V c main_v1 (((cfg0.win 1).blk t).view.emb (ix3 (0 : Fin 1) cc dd)) = V c main_v1 _
    refine congrArg _ (funext fun a => Fin.ext ?_)
    match a with
    | ⟨0, _⟩ => show win0_1.index t (0 : Fin 3) * 1 + 1 * 0 = win0_2.index t (0 : Fin 3) * 1 + 1 * (j 0).val; have hj0 : (j 0).val < 1 := (j 0).isLt; rw [e10, e20]; omega
    | ⟨1, _⟩ => show win0_1.index t (1 : Fin 3) * 64 + 1 * cc.val = cc.val; rw [e11]; omega
    | ⟨2, _⟩ => show win0_1.index t (2 : Fin 3) * 64 + 1 * dd.val = dd.val; rw [e12]; omega

/-- An index of the result array is in point t's block iff each coordinate is in the block's range on its axis. -/
theorem mem_blk0 (t : Fin cfg0.N) (i : S27x100000x64.Idx) :
    i ∈ ((cfg0.win 2).blk t).view.set ↔ ∀ a : Fin 3, win0_2.index t a * S1x20000x64.size a ≤ (i a).val ∧ (i a).val < win0_2.index t a * S1x20000x64.size a + S1x20000x64.size a := by
  show i ∈ ((View.whole main_v9).slice (win0_2.rect t)).set ↔ _
  rw [View.set_slice_whole, Rect.mem_set_unit]
  exact Iff.rfl

/-- THE PRODUCT ARRAY after the region: the batched product of the arrays the region is entered with (offset k, row r is
    covered by point 5·k + r / 20000). -/
theorem final0 (c : Dev nD) : (dat0 V c).arrAt 2 cfg0.N = batchedProduct (V c main_v8) (V c main_v1) :=
  (dat0 V c).arrAt_eq_of_cover 2 _ (fun t _ => flushed0_eq V c t) (fun i => by
    have hN : cfg0.N = 135 := N_0
    have hi0 : (i 0).val < 27 := (i 0).isLt
    have hi1 : (i 1).val < 100000 := (i 1).isLt
    have hi2 : (i 2).val < 64 := (i 2).isLt
    obtain ⟨-, -, -, e20, e21, e22, -⟩ := index_facts0 ⟨5 * (i 0).val + (i 1).val / 20000, by rw [hN]; omega⟩
    refine ⟨⟨5 * (i 0).val + (i 1).val / 20000, by rw [hN]; omega⟩, flush0_2 _, ?_⟩
    rw [mem_blk0]
    intro a
    match a with
    | ⟨0, _⟩ =>
      show win0_2.index _ (0 : Fin 3) * 1 ≤ (i 0).val ∧ (i 0).val < win0_2.index _ (0 : Fin 3) * 1 + 1
      rw [e20]; dsimp only; omega
    | ⟨1, _⟩ =>
      show win0_2.index _ (1 : Fin 3) * 20000 ≤ (i 1).val ∧ (i 1).val < win0_2.index _ (1 : Fin 3) * 20000 + 20000
      rw [e21]; dsimp only; omega
    | ⟨2, _⟩ =>
      show win0_2.index _ (2 : Fin 3) * 64 ≤ (i 2).val ∧ (i 2).val < win0_2.index _ (2 : Fin 3) * 64 + 64
      rw [e22]; omega)

end Cert.KernelIdeal.Result

end
-- ==== Proof.BatchStats.lean ====
/-
  Batch statistics over the extended reals.

  For a column of finitely many REAL numbers x_r (r < N, N the divisor itself), the two ways of computing the
  biased variance agree: the mean of the squares minus the square of the mean, clamped below at zero, is the
  mean of the squared deviations from the mean.  The clamp is the identity because the right-hand side is a
  sum of squares divided by a positive number.  The identity needs finiteness (it cancels and distributes),
  so it is proved on real witnesses and transported along the coercion into the extended reals.

  Also: a sum over the rows of a [T·Q]-row array is the double sum over T blocks of Q rows.
-/
import Idealize.ShloMosaic.PureOps.Ideal
import Idealize.ShloMosaic.PureOps.Ideal.Laws
import Idealize.ShloMosaic.Lib.ValueIdx

noncomputable section

namespace Cert.BatchStats

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The float word of 200000.0 denotes the real 200000. -/
theorem ofBits_200000 : Ideal.ofBits .f32 0x48435000#32 = ((200000 : ℝ) : EReal) := by
  simp [Ideal.ofBits, Ideal.ieee, -EReal.coe_mul]; norm_num

/-- The real identity: E[x²] − E[x]² = E[(x − E[x])²] when the divisor is the number of terms. -/
theorem var_real {ι : Type*} [Fintype ι] (f : ι → ℝ) (n : ℝ) (hn : 0 < n) (hc : (Fintype.card ι : ℝ) = n) :
    (∑ i, f i * f i) * (1 / n) - (∑ i, f i) * (1 / n) * ((∑ i, f i) * (1 / n))
      = (∑ i, (f i - (∑ i, f i) * (1 / n)) * (f i - (∑ i, f i) * (1 / n))) * (1 / n) := by
  have hne : n ≠ 0 := ne_of_gt hn
  set μ := (∑ i, f i) * (1 / n) with hμ
  have e : ∑ i, (f i - μ) * (f i - μ) = (∑ i, f i * f i) - 2 * μ * (∑ i, f i) + n * (μ * μ) := by
    have : ∀ i, (f i - μ) * (f i - μ) = f i * f i - 2 * μ * f i + μ * μ := fun i => by ring
    simp only [this, Finset.sum_add_distrib, Finset.sum_sub_distrib, ← Finset.mul_sum, Finset.sum_const,
      Finset.card_univ, nsmul_eq_mul, hc]
    ring
  rw [e, hμ]
  field_simp
  ring

/-- THE LAW, on the extended reals: for a column of reals, the clamped "mean of squares minus squared mean" is the
    mean of the squared deviations (both divisions by the number of terms, both sums from a zero initial value or
    none). -/
theorem var_law {ι : Type*} [Fintype ι] (x : ι → EReal) (hx : ∀ i, ∃ y : ℝ, x i = (y : EReal)) (n : ℝ) (hn : 0 < n)
    (hc : (Fintype.card ι : ℝ) = n) :
    max (Ideal.div (∑ i, x i * x i) (n : EReal) - Ideal.div (∑ i, x i) (n : EReal) * Ideal.div (∑ i, x i) (n : EReal)) 0
      = Ideal.div (0 + ∑ i, (x i - Ideal.div (0 + ∑ i, x i) (n : EReal)) * (x i - Ideal.div (0 + ∑ i, x i) (n : EReal))) (n : EReal) := by
  have hne : n ≠ 0 := ne_of_gt hn
  choose f hf using hx
  have hxf : x = fun i => (f i : EReal) := funext hf
  subst hxf
  simp only [zero_add, Ideal.div_coe hne, ← EReal.coe_mul, ← coe_sum, ← EReal.coe_sub]
  rw [var_real f n hn hc]
  apply max_eq_left
  rw [← EReal.coe_zero, EReal.coe_le_coe_iff]
  apply mul_nonneg
  · exact Finset.sum_nonneg fun i _ => mul_self_nonneg _
  · positivity

/-- The mean computed with or without a zero initial value. -/
theorem zero_add_sum {ι : Type*} [Fintype ι] (x : ι → EReal) : (0 : EReal) + ∑ i, x i = ∑ i, x i := zero_add _

/-- A sum over T·Q rows is the sum over T blocks of the sums over each block's Q rows (row r = Q·t + q). -/
theorem sum_blocks {M : Type*} [AddCommMonoid M] (T Q : Nat) (h : Fin (T * Q) → M) :
    ∑ r : Fin (T * Q), h r = ∑ t : Fin T, ∑ q : Fin Q, h (finProdFinEquiv (t, q)) := by
  rw [← Equiv.sum_comp finProdFinEquiv h, Fintype.sum_prod_type]

end Cert.BatchStats

end
-- ==== Proof.Stats.lean ====
/-
  The second kernel region (the per-column sum and sum of squares), read as functions of the arrays it is entered with.

  The grid has 20 points; point t stages rows 10000·t … 10000·t + 9999 of the [200000, 64] accumulator and the
  [1, 64] bias row.  Both outputs are [1, 64] rows whose block never moves: point 0 resets them to zero, every
  point adds the column sums of (x + bias), respectively of (x + bias)², over its 10000 rows, and the rows are
  written back after the last point only.  So what the rows end holding is the fold over the 20 points of the
  block sums, which over the extended reals (addition is associative and commutative there) is the sum over all
  200000 rows.
-/
import proofs.«116026_j56392920596826_2_alg».proof.Proof.Gen.KernelIdeal.Frame
import proofs.«116026_j56392920596826_2_alg».proof.Proof.BatchStats
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx
open Idealize.ShloMosaic.Pipeline (Dat)

section Pieces
variable {F : FTy → Type} [FloatOps F]

theorem zeros2' : (![0, 0] : Fin 2 → Nat) = fun _ => 0 := funext fun a => by fin_cases a <;> rfl

/-- A later point leaves, in the sum row holding xo, the body's accumulating payload of the staged block, the bias and xo. -/
theorem sumB (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 xo2 xo3 : Vec F S1x64 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero zeros2']
  simp only [View.readAt_eq_ld, h1.read_unread, h2.read_unread, h3.read_unread, View.ld_unit_zero (S := S10000x64) zeros2',
    View.ld_unit_zero (S := S1x64) zeros2']

/-- A later point leaves, in the sum-of-squares row holding xo, the accumulating payload of the block, the bias and xo. -/
theorem sqB (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 xo2 xo3 : Vec F S1x64 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero zeros2']
  simp only [View.readAt_eq_ld, h1.read_unread, h2.read_unread, h4.read_unread, View.ld_unit_zero (S := S10000x64) zeros2',
    View.ld_unit_zero (S := S1x64) zeros2']

/-- The first point stores the zero row, reads it back, and leaves the accumulating payload over the zero row. -/
theorem sumA (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x64) zeros2', View.readCov_unit_zero (S := S1x64) _ zeros2']
  simp only [View.readAt_eq_ld, h1.read_unread, h2.read_unread, View.ld_unit_zero (S := S10000x64) zeros2',
    View.ld_unit_zero (S := S1x64) zeros2']

/-- The same for the sum-of-squares row. -/
theorem sqA (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x64) zeros2', View.readCov_unit_zero (S := S1x64) _ zeros2']
  simp only [View.readAt_eq_ld, h1.read_unread, h2.read_unread, View.ld_unit_zero (S := S10000x64) zeros2',
    View.ld_unit_zero (S := S1x64) zeros2']

end Pieces

/-! ## The payloads at an index, over the extended reals -/

theorem lift_col (q : Fin 10000) (d : Fin 64) : reduces_S10000x64_S64.lift (ix1 d) (q : Fin 10000) = ix2 q d :=
  funext fun a => Fin.ext (by match a with | ⟨0, _⟩ => rfl | ⟨1, _⟩ => rfl)

theorem pay3_apply (x0 : Vec Ideal S10000x64 .f32) (x1 : Vec Ideal S1x64 .f32) (q : Fin 10000) (d : Fin 64) :
    k1_pay3 x0 x1 (ix2 q d) = x0 (ix2 q d) + x1 (ix2 (0 : Fin 1) d) := by
  unfold k1_pay3
  simp only [addf_apply, shapeCast_self, broadcastTo_1b_ab_apply]

/-- The accumulating payload at column d: what the row held plus the column sum of (x + bias) over the block's rows. -/
theorem pay4_apply (x0 : Vec Ideal S10000x64 .f32) (x1 xo : Vec Ideal S1x64 .f32) (u : Fin 1) (d : Fin 64) :
    k1_pay4 x0 x1 xo (ix2 u d) = xo (ix2 u d) + ∑ q : Fin 10000, (x0 (ix2 q d) + x1 (ix2 (0 : Fin 1) d)) := by
  unfold k1_pay4
  simp only [addf_apply, shapeCast_self]
  rw [shapeCast_a_1a_apply]
  refine congrArg (xo (ix2 u d) + ·) ?_
  refine (Ideal.multiReduction_add_single (k1_pay3 x0 x1) _ reduces_S10000x64_S64 _ _ (ix1 d)).trans ?_
  refine Finset.sum_congr rfl fun q _ => ?_
  exact (congrArg (k1_pay3 x0 x1) (lift_col q d)).trans (pay3_apply x0 x1 q d)

/-- The same for the squares. -/
theorem pay5_apply (x0 : Vec Ideal S10000x64 .f32) (x1 xo : Vec Ideal S1x64 .f32) (u : Fin 1) (d : Fin 64) :
    k1_pay5 x0 x1 xo (ix2 u d) = xo (ix2 u d)
      + ∑ q : Fin 10000, (x0 (ix2 q d) + x1 (ix2 (0 : Fin 1) d)) * (x0 (ix2 q d) + x1 (ix2 (0 : Fin 1) d)) := by
  unfold k1_pay5
  simp only [addf_apply, shapeCast_self]
  rw [shapeCast_a_1a_apply]
  refine congrArg (xo (ix2 u d) + ·) ?_
  refine (Ideal.multiReduction_add_single (mulf (k1_pay3 x0 x1) (k1_pay3 x0 x1)) _ reduces_S10000x64_S64 _ _ (ix1 d)).trans ?_
  refine Finset.sum_congr rfl fun q _ => ?_
  have e : k1_pay3 x0 x1 (reduces_S10000x64_S64.lift (ix1 d) (q : Fin 10000)) = x0 (ix2 (q : Fin 10000) d) + x1 (ix2 (0 : Fin 1) d) :=
    (congrArg (k1_pay3 x0 x1) (lift_col q d)).trans (pay3_apply x0 x1 q d)
  exact congrArg₂ (· * ·) e e

theorem pay1_apply (u : Fin 1) (d : Fin 64) : k1_pay1 (F := Ideal) (ix2 u d) = 0 := by
  unfold k1_pay1
  simp only [broadcast_apply]
  exact Ideal.ofBits_zero_f32

theorem pay2z_apply (u : Fin 1) (d : Fin 64) : k1_pay2 (F := Ideal) (ix2 u d) = 0 := by
  unfold k1_pay2
  simp only [broadcast_apply]
  exact Ideal.ofBits_zero_f32

/-! ## The fold over the grid -/

/-- Row r of the accumulator (the remainder only keeps the function total; every use has r < 200000). -/
def rowAt (r : Nat) : Fin 200000 := ⟨r % 200000, Nat.mod_lt _ (by norm_num)⟩

/-- Column d's sum of (x + bias) over block t's 10000 rows. -/
def blockSum (o : S200000x64.Idx → EReal) (b : S1x64.Idx → EReal) (t : Nat) (d : Fin 64) : EReal :=
  ∑ q : Fin 10000, (o (ix2 (rowAt (t * 10000 + q.val)) d) + b (ix2 (0 : Fin 1) d))

/-- Column d's sum of (x + bias)² over block t's 10000 rows. -/
def blockSumSq (o : S200000x64.Idx → EReal) (b : S1x64.Idx → EReal) (t : Nat) (d : Fin 64) : EReal :=
  ∑ q : Fin 10000, (o (ix2 (rowAt (t * 10000 + q.val)) d) + b (ix2 (0 : Fin 1) d)) * (o (ix2 (rowAt (t * 10000 + q.val)) d) + b (ix2 (0 : Fin 1) d))

/-- One point's step on the sum row, at column d, with the staged block and bias named by the arrays. -/
theorem step_sum (x0 : Vec Ideal S10000x64 .f32) (x1 xo : Vec Ideal S1x64 .f32) (o : S200000x64.Idx → EReal) (b : S1x64.Idx → EReal)
    (t : Nat) (h0 : ∀ (q : Fin 10000) (d : Fin 64), x0 (ix2 q d) = o (ix2 (rowAt (t * 10000 + q.val)) d)) (h1 : x1 = b)
    (u : Fin 1) (d : Fin 64) : k1_pay4 x0 x1 xo (ix2 u d) = xo (ix2 u d) + blockSum o b t d := by
  subst h1
  rw [pay4_apply]
  unfold blockSum
  refine congrArg (xo (ix2 u d) + ·) (Finset.sum_congr rfl fun q _ => ?_)
  rw [h0]

theorem step_sq (x0 : Vec Ideal S10000x64 .f32) (x1 xo : Vec Ideal S1x64 .f32) (o : S200000x64.Idx → EReal) (b : S1x64.Idx → EReal)
    (t : Nat) (h0 : ∀ (q : Fin 10000) (d : Fin 64), x0 (ix2 q d) = o (ix2 (rowAt (t * 10000 + q.val)) d)) (h1 : x1 = b)
    (u : Fin 1) (d : Fin 64) : k1_pay5 x0 x1 xo (ix2 u d) = xo (ix2 u d) + blockSumSq o b t d := by
  subst h1
  rw [pay5_apply]
  unfold blockSumSq
  refine congrArg (xo (ix2 u d) + ·) (Finset.sum_congr rfl fun q _ => ?_)
  rw [h0]

variable (V : (c : Dev nD) → (b : Ref sig .tc) → Buf (Elt Ideal) ((c : Thread nD τ).loc b))

/-- The printed index maps over the grid: the accumulator's block index is (t, 0); the bias's and both outputs' is (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The staged block at point t is rows 10000·t + q of the accumulator. -/
theorem iblk1_rows (c : Dev nD) (t : Fin cfg1.N) (q : Fin 10000) (d : Fin 64) :
    (iblk1 V c 0 t : Vec Ideal S10000x64 .f32) (ix2 q d) = V c main_v19 (ix2 (rowAt (t.val * 10000 + q.val)) d) := by
  obtain ⟨e00, e01, -⟩ := index_facts1 t
  have hN : cfg1.N = 20 := N_1
  have ht : t.val < 20 := hN ▸ t.isLt
  show V c main_v19 (((cfg1.win 0).blk t).view.emb (ix2 q d)) = V c main_v19 _
  refine congrArg _ (funext fun a => Fin.ext ?_)
  match a with
  | ⟨0, _⟩ =>
    show win1_0.index t (0 : Fin 2) * 10000 + 1 * q.val = (t.val * 10000 + q.val) % 200000
    rw [e00, Nat.mod_eq_of_lt (by omega)]; omega
  | ⟨1, _⟩ => show win1_0.index t (1 : Fin 2) * 64 + 1 * d.val = d.val; rw [e01]; omega

/-- The staged bias row is the whole bias row. -/
theorem iblk1_bias (c : Dev nD) (t : Fin cfg1.N) : (iblk1 V c 1 t : Vec Ideal S1x64 .f32) = V c main_v20 := by
  obtain ⟨-, -, e10, e11, -⟩ := index_facts1 t
  funext y
  show V c main_v20 (((cfg1.win 1).blk t).view.emb y) = V c main_v20 y
  refine congrArg _ (funext fun a => Fin.ext ?_)
  match a with
  | ⟨0, _⟩ => show win1_1.index t (0 : Fin 2) * 1 + 1 * (y 0).val = (y 0).val; rw [e10]; omega
  | ⟨1, _⟩ => show win1_1.index t (1 : Fin 2) * 64 + 1 * (y 1).val = (y 1).val; rw [e11]; omega

/-- WHAT THE TWO ROWS HOLD after point n: the sums of the block sums (of the block sums of squares) of points 0 … n. -/
theorem outsAt1_eq (c : Dev nD) : ∀ (n : ℕ) (h : n < cfg1.N),
    (∀ (u : Fin 1) (d : Fin 64), (outsAt1 V c n h).1 (ix2 u d) = ∑ t ∈ Finset.range (n + 1), blockSum (V c main_v19) (V c main_v20) t d)
    ∧ (∀ (u : Fin 1) (d : Fin 64), (outsAt1 V c n h).2 (ix2 u d) = ∑ t ∈ Finset.range (n + 1), blockSumSq (V c main_v19) (V c main_v20) t d)
  | 0, h => by
    have e := outsAt1_A V c ⟨0, h⟩ rfl
    constructor
    · intro u d
      rw [show (outsAt1 V c 0 h).1 = _ from congrArg Prod.fst e]
      dsimp only
      rw [sumA]
      rw [step_sum _ _ _ (V c main_v19) (V c main_v20) 0 (iblk1_rows V c ⟨0, h⟩) (iblk1_bias V c ⟨0, h⟩) u d, pay1_apply, zero_add,
        Finset.sum_range_one]
    · intro u d
      rw [show (outsAt1 V c 0 h).2 = _ from congrArg Prod.snd e]
      dsimp only
      rw [sqA]
      rw [step_sq _ _ _ (V c main_v19) (V c main_v20) 0 (iblk1_rows V c ⟨0, h⟩) (iblk1_bias V c ⟨0, h⟩) u d, pay2z_apply, zero_add,
        Finset.sum_range_one]
  | n + 1, h => by
    have hN : cfg1.N = 20 := N_1
    have hB : ¬(⟨n + 1, h⟩ : Fin cfg1.N).val % 20 = 0 := by dsimp only; omega
    obtain ⟨ih1, ih2⟩ := outsAt1_eq c n (Nat.lt_of_succ_lt h)
    have e := outsAt1_B V c ⟨n + 1, h⟩ hB
    constructor
    · intro u d
      rw [show (outsAt1 V c (n + 1) h).1 = _ from congrArg Prod.fst e]
      dsimp only
      rw [sumB]
      rw [step_sum _ _ _ (V c main_v19) (V c main_v20) (n + 1) (iblk1_rows V c ⟨n + 1, h⟩) (iblk1_bias V c ⟨n + 1, h⟩) u d,
        Finset.sum_range_succ _ (n + 1)]
      exact congrArg (· + blockSum (V c main_v19) (V c main_v20) (n + 1) d) (ih1 u d)
    · intro u d
      rw [show (outsAt1 V c (n + 1) h).2 = _ from congrArg Prod.snd e]
      dsimp only
      rw [sqB]
      rw [step_sq _ _ _ (V c main_v19) (V c main_v20) (n + 1) (iblk1_rows V c ⟨n + 1, h⟩) (iblk1_bias V c ⟨n + 1, h⟩) u d,
        Finset.sum_range_succ _ (n + 1)]
      exact congrArg (· + blockSumSq (V c main_v19) (V c main_v20) (n + 1) d) (ih2 u d)

/-- Column d's sum of (x + bias) over all 200000 rows. -/
def colSum (o : S200000x64.Idx → EReal) (b : S1x64.Idx → EReal) (d : Fin 64) : EReal :=
  ∑ r : Fin 200000, (o (ix2 r d) + b (ix2 (0 : Fin 1) d))

/-- Column d's sum of (x + bias)² over all 200000 rows. -/
def colSumSq (o : S200000x64.Idx → EReal) (b : S1x64.Idx → EReal) (d : Fin 64) : EReal :=
  ∑ r : Fin 200000, (o (ix2 r d) + b (ix2 (0 : Fin 1) d)) * (o (ix2 r d) + b (ix2 (0 : Fin 1) d))

theorem rowAt_block (t : Fin 20) (q : Fin 10000) : rowAt (t.val * 10000 + q.val) = (finProdFinEquiv (t, q) : Fin (20 * 10000)) := by
  apply Fin.ext
  show (t.val * 10000 + q.val) % 200000 = q.val + 10000 * t.val
  rw [Nat.mod_eq_of_lt (by omega)]; omega

/-- The 20 block sums add up to the sum over all rows. -/
theorem sum_blockSum (o : S200000x64.Idx → EReal) (b : S1x64.Idx → EReal) (d : Fin 64) :
    ∑ t ∈ Finset.range 20, blockSum o b t d = colSum o b d := by
  rw [Finset.sum_range (fun t => blockSum o b t d)]
  unfold colSum blockSum
  rw [BatchStats.sum_blocks 20 10000 (fun r => o (ix2 r d) + b (ix2 (0 : Fin 1) d))]
  refine Finset.sum_congr rfl fun t _ => Finset.sum_congr rfl fun q _ => ?_
  rw [rowAt_block]

theorem sum_blockSumSq (o : S200000x64.Idx → EReal) (b : S1x64.Idx → EReal) (d : Fin 64) :
    ∑ t ∈ Finset.range 20, blockSumSq o b t d = colSumSq o b d := by
  rw [Finset.sum_range (fun t => blockSumSq o b t d)]
  unfold colSumSq blockSumSq
  rw [BatchStats.sum_blocks 20 10000 (fun r => (o (ix2 r d) + b (ix2 (0 : Fin 1) d)) * (o (ix2 r d) + b (ix2 (0 : Fin 1) d)))]
  refine Finset.sum_congr rfl fun t _ => Finset.sum_congr rfl fun q _ => ?_
  rw [rowAt_block]

/-- A [1, 64] row that depends on the column only, staged through either output window, is the same row read back. -/
theorem cut_read_row2 (t : Fin cfg1.N) (g : Fin 64 → EReal) :
    (cfg1.win 2).cut (grid1.coords t) (fun j' : S1x64.Idx => g (j' 1 : Fin 64))
      = ((cfg1.win 2).blk t).view.read (Elt Ideal) (fun i : S1x64.Idx => g (i 1 : Fin 64)) := by
  obtain ⟨-, -, -, -, e20, e21, -⟩ := index_facts1 t
  funext j
  show g (j 1 : Fin 64) = g ((((cfg1.win 2).blk t).view.emb j) 1 : Fin 64)
  refine congrArg _ (Fin.ext ?_)
  show (j 1).val = win1_2.index t (1 : Fin 2) * 64 + 1 * (j 1).val
  rw [e21]; omega

theorem cut_read_row3 (t : Fin cfg1.N) (g : Fin 64 → EReal) :
    (cfg1.win 3).cut (grid1.coords t) (fun j' : S1x64.Idx => g (j' 1 : Fin 64))
      = ((cfg1.win 3).blk t).view.read (Elt Ideal) (fun i : S1x64.Idx => g (i 1 : Fin 64)) := by
  obtain ⟨-, -, -, -, -, -, e30, e31⟩ := index_facts1 t
  funext j
  show g (j 1 : Fin 64) = g ((((cfg1.win 3).blk t).view.emb j) 1 : Fin 64)
  refine congrArg _ (Fin.ext ?_)
  show (j 1).val = win1_3.index t (1 : Fin 2) * 64 + 1 * (j 1).val
  rw [e31]; omega

/-- The one write-back of the sum row (after the last point) writes the column sums. -/
theorem flushed1_2_eq (c : Dev nD) (t : Fin cfg1.N) (hf : (cfg1.win 2).flush t = true) :
    (dat1 V c).flushed 2 t = ((cfg1.win 2).blk t).view.read (Elt Ideal)
      (fun i : S1x64.Idx => colSum (V c main_v19) (V c main_v20) (i 1 : Fin 64)) := by
  have hN : cfg1.N = 20 := N_1
  have ht : t.val < 20 := lt_of_lt_of_eq t.isLt hN
  have h19 : t.val = 19 := by have := (flush1_2 t).mp hf; omega
  obtain ⟨-, -, -, -, e20, e21, -⟩ := index_facts1 t
  show (cfg1.win 2).cut (grid1.coords t) ((dat1 V c).after 2 t) = _
  rw [after1_2]
  have hX : (outsAt1 V c t.val t.isLt).1 = fun j' : S1x64.Idx => colSum (V c main_v19) (V c main_v20) (j' 1 : Fin 64) := by
    funext j'
    obtain ⟨u, d, rfl⟩ : ∃ (u : Fin 1) (d : Fin 64), j' = ix2 u d := ⟨j' 0, j' 1, eq_ix2 j'⟩
    rw [(outsAt1_eq V c t.val t.isLt).1 u d, h19, sum_blockSum]
  rw [hX]
  exact cut_read_row2 t (colSum (V c main_v19) (V c main_v20))

theorem flushed1_3_eq (c : Dev nD) (t : Fin cfg1.N) (hf : (cfg1.win 3).flush t = true) :
    (dat1 V c).flushed 3 t = ((cfg1.win 3).blk t).view.read (Elt Ideal)
      (fun i : S1x64.Idx => colSumSq (V c main_v19) (V c main_v20) (i 1 : Fin 64)) := by
  have hN : cfg1.N = 20 := N_1
  have ht : t.val < 20 := lt_of_lt_of_eq t.isLt hN
  have h19 : t.val = 19 := by have := (flush1_3 t).mp hf; omega
  obtain ⟨-, -, -, -, -, -, e30, e31⟩ := index_facts1 t
  show (cfg1.win 3).cut (grid1.coords t) ((dat1 V c).after 3 t) = _
  rw [after1_3]
  have hX : (outsAt1 V c t.val t.isLt).2 = fun j' : S1x64.Idx => colSumSq (V c main_v19) (V c main_v20) (j' 1 : Fin 64) := by
    funext j'
    obtain ⟨u, d, rfl⟩ : ∃ (u : Fin 1) (d : Fin 64), j' = ix2 u d := ⟨j' 0, j' 1, eq_ix2 j'⟩
    rw [(outsAt1_eq V c t.val t.isLt).2 u d, h19, sum_blockSumSq]
  rw [hX]
  exact cut_read_row3 t (colSumSq (V c main_v19) (V c main_v20))

theorem mem_blk1_2 (t : Fin cfg1.N) (i : S1x64.Idx) :
    i ∈ ((cfg1.win 2).blk t).view.set ↔ ∀ a : Fin 2, win1_2.index t a * S1x64.size a ≤ (i a).val ∧ (i a).val < win1_2.index t a * S1x64.size a + S1x64.size a := by
  show i ∈ ((View.whole main_v23_0).slice (win1_2.rect t)).set ↔ _
  rw [View.set_slice_whole, Rect.mem_set_unit]
  exact Iff.rfl

theorem mem_blk1_3 (t : Fin cfg1.N) (i : S1x64.Idx) :
    i ∈ ((cfg1.win 3).blk t).view.set ↔ ∀ a : Fin 2, win1_3.index t a * S1x64.size a ≤ (i a).val ∧ (i a).val < win1_3.index t a * S1x64.size a + S1x64.size a := by
  show i ∈ ((View.whole main_v23_1).slice (win1_3.rect t)).set ↔ _
  rw [View.set_slice_whole, Rect.mem_set_unit]
  exact Iff.rfl

/-- THE SUM ROW after the region: the column sums of (x + bias) over all rows. -/
theorem final1_2 (c : Dev nD) : (dat1 V c).arrAt 2 cfg1.N = fun i : S1x64.Idx => colSum (V c main_v19) (V c main_v20) (i 1 : Fin 64) :=
  (dat1 V c).arrAt_eq_of_cover 2 _ (fun t hf => flushed1_2_eq V c t hf) (fun i => by
    have hN : cfg1.N = 20 := N_1
    have hi0 : (i 0).val < 1 := (i 0).isLt
    have hi1 : (i 1).val < 64 := (i 1).isLt
    obtain ⟨-, -, -, -, e20, e21, -⟩ := index_facts1 ⟨19, by rw [hN]; omega⟩
    refine ⟨⟨19, by rw [hN]; omega⟩, (flush1_2 _).mpr rfl, ?_⟩
    rw [mem_blk1_2]
    intro a
    match a with
    | ⟨0, _⟩ =>
      show win1_2.index _ (0 : Fin 2) * 1 ≤ (i 0).val ∧ (i 0).val < win1_2.index _ (0 : Fin 2) * 1 + 1
      rw [e20]; omega
    | ⟨1, _⟩ =>
      show win1_2.index _ (1 : Fin 2) * 64 ≤ (i 1).val ∧ (i 1).val < win1_2.index _ (1 : Fin 2) * 64 + 64
      rw [e21]; omega)

/-- THE SUM-OF-SQUARES ROW after the region: the column sums of (x + bias)² over all rows. -/
theorem final1_3 (c : Dev nD) : (dat1 V c).arrAt 3 cfg1.N = fun i : S1x64.Idx => colSumSq (V c main_v19) (V c main_v20) (i 1 : Fin 64) :=
  (dat1 V c).arrAt_eq_of_cover 3 _ (fun t hf => flushed1_3_eq V c t hf) (fun i => by
    have hN : cfg1.N = 20 := N_1
    have hi0 : (i 0).val < 1 := (i 0).isLt
    have hi1 : (i 1).val < 64 := (i 1).isLt
    obtain ⟨-, -, -, -, -, -, e30, e31⟩ := index_facts1 ⟨19, by rw [hN]; omega⟩
    refine ⟨⟨19, by rw [hN]; omega⟩, (flush1_3 _).mpr rfl, ?_⟩
    rw [mem_blk1_3]
    intro a
    match a with
    | ⟨0, _⟩ =>
      show win1_3.index _ (0 : Fin 2) * 1 ≤ (i 0).val ∧ (i 0).val < win1_3.index _ (0 : Fin 2) * 1 + 1
      rw [e30]; omega
    | ⟨1, _⟩ =>
      show win1_3.index _ (1 : Fin 2) * 64 ≤ (i 1).val ∧ (i 1).val < win1_3.index _ (1 : Fin 2) * 64 + 64
      rw [e31]; omega)

theorem colSum_def (o : S200000x64.Idx → EReal) (b : S1x64.Idx → EReal) (d : Fin 64) :
    colSum o b d = ∑ r : Fin 200000, (o (ix2 r d) + b (ix2 (0 : Fin 1) d)) := rfl

theorem colSumSq_def (o : S200000x64.Idx → EReal) (b : S1x64.Idx → EReal) (d : Fin 64) :
    colSumSq o b d = ∑ r : Fin 200000, (o (ix2 r d) + b (ix2 (0 : Fin 1) d)) * (o (ix2 r d) + b (ix2 (0 : Fin 1) d)) := rfl

attribute [irreducible] colSum colSumSq blockSum blockSumSq

end Cert.KernelIdeal.Result

end
-- ==== Proof.Normalize.lean ====
/-
  The third kernel region (normalize + ReLU), read as one function of the arrays it is entered with.

  The grid has 20 points; point t stages rows 10000·t … 10000·t + 9999 of the [200000, 64] accumulator and the
  whole of five [1, 64] rows (bias, mean, variance, gamma, beta), and writes back the same rows of the result.
  Every element of the block is the same pointwise expression of the accumulator element and the column's entries
  of the five rows, so the result array is that expression of the whole arrays, index by index.
-/
import proofs.«116026_j56392920596826_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx
open Idealize.ShloMosaic.Pipeline (Dat)

theorem zeros2 : (![0, 0] : Fin 2 → Nat) = fun _ => 0 := funext fun a => by fin_cases a <;> rfl

/-- y = max(((x + bias − mean) · rsqrt(var + ε)) · gamma + beta, 0), column by column. -/
def normRelu (o : S200000x64.Idx → EReal) (b mu var g be : S1x64.Idx → EReal) : S200000x64.Idx → EReal :=
  fun i => max ((((o i + b (ix2 (0 : Fin 1) (i 1 : Fin 64))) - mu (ix2 (0 : Fin 1) (i 1 : Fin 64)))
      * Ideal.rsqrt (var (ix2 (0 : Fin 1) (i 1 : Fin 64)) + Ideal.ofBits .f32 0x3727C5AC#32)) * g (ix2 (0 : Fin 1) (i 1 : Fin 64))
      + be (ix2 (0 : Fin 1) (i 1 : Fin 64))) (Ideal.ofBits .f32 0x00000000#32)

theorem normRelu_apply (o : S200000x64.Idx → EReal) (b mu var g be : S1x64.Idx → EReal) (r : Fin 200000) (d : Fin 64) :
    normRelu o b mu var g be (ix2 r d)
      = max ((((o (ix2 r d) + b (ix2 (0 : Fin 1) d)) - mu (ix2 (0 : Fin 1) d))
          * Ideal.rsqrt (var (ix2 (0 : Fin 1) d) + Ideal.ofBits .f32 0x3727C5AC#32)) * g (ix2 (0 : Fin 1) d)
          + be (ix2 (0 : Fin 1) d)) (Ideal.ofBits .f32 0x00000000#32) := rfl

/-- The body's stored value at row q, column d of the block. -/
theorem pay2_apply (v0 : Vec Ideal S10000x64 .f32) (v2 v6 v11 v17 v21 : Vec Ideal S1x64 .f32) (q : Fin 10000) (d : Fin 64) :
    k2_pay1 v0 v2 v6 v11 v17 v21 (ix2 q d)
      = max ((((v0 (ix2 q d) + v2 (ix2 (0 : Fin 1) d)) - v11 (ix2 (0 : Fin 1) d))
          * Ideal.rsqrt (v6 (ix2 (0 : Fin 1) d) + Ideal.ofBits .f32 0x3727C5AC#32)) * v17 (ix2 (0 : Fin 1) d)
          + v21 (ix2 (0 : Fin 1) d)) (Ideal.ofBits .f32 0x00000000#32) := by
  unfold k2_pay1
  simp only [maximumf_apply, addf_apply, mulf_apply, subf_apply, broadcast_apply, shapeCast_self, broadcastTo_1b_ab_apply]
  rfl

/-- One element of the block: the body's stored value at block index j is the pointwise expression at the array
    index i it is written back to, when the staged accumulator element is the array's and the staged rows are the
    whole rows. -/
theorem block2_eq (x0 : Vec Ideal S10000x64 .f32) (x1 x2 x3 x4 x5 : Vec Ideal S1x64 .f32)
    (o : S200000x64.Idx → EReal) (b mu var g be : S1x64.Idx → EReal) (j : S10000x64.Idx) (i : S200000x64.Idx)
    (hd : (i 1).val = (j 1).val) (h0 : x0 j = o i)
    (h1 : x1 = b) (h2 : x2 = mu) (h3 : x3 = var) (h4 : x4 = g) (h5 : x5 = be) :
    k2_pay1 x0 x1 x3 x2 x4 x5 j = normRelu o b mu var g be i := by
  subst h1 h2 h3 h4 h5
  obtain ⟨q, d, rfl⟩ : ∃ (q : Fin 10000) (d : Fin 64), j = ix2 q d := ⟨j 0, j 1, eq_ix2 j⟩
  rw [pay2_apply, h0]
  have hid : (i 1 : Fin 64) = d := Fin.ext hd
  unfold normRelu
  rw [hid]

variable (V : (c : Dev nD) → (b : Ref sig .tc) → Buf (Elt Ideal) ((c : Thread nD τ).loc b))

/-- The printed index maps over the grid: the accumulator's and the result's block index is (t, 0); the five rows'
    is (0, 0). -/
theorem index_facts2 : ∀ t : Fin cfg2.N, win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- WHAT POINT t WRITES BACK is block t of the pointwise expression of the arrays the region is entered with. -/
theorem flushed2_eq (c : Dev nD) (t : Fin cfg2.N) :
    (dat2 V c).flushed 6 t = ((cfg2.win 6).blk t).view.read (Elt Ideal)
      (normRelu (V c main_v19) (V c main_v20) (V c main_v25) (V c main_v31) (V c main_v21) (V c main_v22)) := by
  show (cfg2.win 6).cut (grid2.coords t) ((dat2 V c).after 6 t) = _
  rw [after2_6]
  unfold out2_6
  rw [View.canon_unit_zero zeros2]
  simp only [View.ld_unit_zero (S := S10000x64) zeros2, View.ld_unit_zero (S := S1x64) zeros2]
  obtain ⟨e00, e01, e60, e61, e10, e11, e20, e21, e30, e31, e40, e41, e50, e51⟩ := index_facts2 t
  funext j
  show k2_pay1 (iblk2 V c 0 t) (iblk2 V c 1 t) (iblk2 V c 3 t) (iblk2 V c 2 t) (iblk2 V c 4 t) (iblk2 V c 5 t) j
    = normRelu (V c main_v19) (V c main_v20) (V c main_v25) (V c main_v31) (V c main_v21) (V c main_v22) (((cfg2.win 6).blk t).view.emb j)
  refine block2_eq _ _ _ _ _ _ _ _ _ _ _ _ j _ ?_ ?_ ?_ ?_ ?_ ?_ ?_
  · show win2_6.index t (1 : Fin 2) * 64 + 1 * (j 1).val = (j 1).val
    rw [e61]; omega
  · show V c main_v19 (((cfg2.win 0).blk t).view.emb j) = V c main_v19 (((cfg2.win 6).blk t).view.emb j)
    refine congrArg _ (funext fun a => Fin.ext ?_)
    match a with
    | ⟨0, _⟩ => show win2_0.index t (0 : Fin 2) * 10000 + 1 * (j 0).val = win2_6.index t (0 : Fin 2) * 10000 + 1 * (j 0).val; rw [e00, e60]
    | ⟨1, _⟩ => show win2_0.index t (1 : Fin 2) * 64 + 1 * (j 1).val = win2_6.index t (1 : Fin 2) * 64 + 1 * (j 1).val; rw [e01, e61]
  · funext y
    show V c main_v20 (((cfg2.win 1).blk t).view.emb y) = V c main_v20 y
    refine congrArg _ (funext fun a => Fin.ext ?_)
    match a with
    | ⟨0, _⟩ => show win2_1.index t (0 : Fin 2) * 1 + 1 * (y 0).val = (y 0).val; rw [e10]; omega
    | ⟨1, _⟩ => show win2_1.index t (1 : Fin 2) * 64 + 1 * (y 1).val = (y 1).val; rw [e11]; omega
  · funext y
    show V c main_v25 (((cfg2.win 2).blk t).view.emb y) = V c main_v25 y
    refine congrArg _ (funext fun a => Fin.ext ?_)
    match a with
    | ⟨0, _⟩ => show win2_2.index t (0 : Fin 2) * 1 + 1 * (y 0).val = (y 0).val; rw [e20]; omega
    | ⟨1, _⟩ => show win2_2.index t (1 : Fin 2) * 64 + 1 * (y 1).val = (y 1).val; rw [e21]; omega
  · funext y
    show V c main_v31 (((cfg2.win 3).blk t).view.emb y) = V c main_v31 y
    refine congrArg _ (funext fun a => Fin.ext ?_)
    match a with
    | ⟨0, _⟩ => show win2_3.index t (0 : Fin 2) * 1 + 1 * (y 0).val = (y 0).val; rw [e30]; omega
    | ⟨1, _⟩ => show win2_3.index t (1 : Fin 2) * 64 + 1 * (y 1).val = (y 1).val; rw [e31]; omega
  · funext y
    show V c main_v21 (((cfg2.win 4).blk t).view.emb y) = V c main_v21 y
    refine congrArg _ (funext fun a => Fin.ext ?_)
    match a with
    | ⟨0, _⟩ => show win2_4.index t (0 : Fin 2) * 1 + 1 * (y 0).val = (y 0).val; rw [e40]; omega
    | ⟨1, _⟩ => show win2_4.index t (1 : Fin 2) * 64 + 1 * (y 1).val = (y 1).val; rw [e41]; omega
  · funext y
    show V c main_v22 (((cfg2.win 5).blk t).view.emb y) = V c main_v22 y
    refine congrArg _ (funext fun a => Fin.ext ?_)
    match a with
    | ⟨0, _⟩ => show win2_5.index t (0 : Fin 2) * 1 + 1 * (y 0).val = (y 0).val; rw [e50]; omega
    | ⟨1, _⟩ => show win2_5.index t (1 : Fin 2) * 64 + 1 * (y 1).val = (y 1).val; rw [e51]; omega

/-- An index of the result array is in point t's block iff each coordinate is in the block's range on its axis. -/
theorem mem_blk2 (t : Fin cfg2.N) (i : S200000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v32).slice (win2_6.rect t)).set ↔ _
  rw [View.set_slice_whole, Rect.mem_set_unit]
  exact Iff.rfl

/-- THE RESULT ARRAY after the region: the pointwise expression of the arrays the region is entered with (row r is
    covered by point r / 10000). -/
theorem final2 (c : Dev nD) : (dat2 V c).arrAt 6 cfg2.N
    = normRelu (V c main_v19) (V c main_v20) (V c main_v25) (V c main_v31) (V c main_v21) (V c main_v22) :=
  (dat2 V c).arrAt_eq_of_cover 6 _ (fun t _ => flushed2_eq V c t) (fun i => by
    have hN : cfg2.N = 20 := N_2
    have hi0 : (i 0).val < 200000 := (i 0).isLt
    have hi1 : (i 1).val < 64 := (i 1).isLt
    obtain ⟨e00, e01, e60, e61, -⟩ := index_facts2 ⟨(i 0).val / 10000, by rw [hN]; omega⟩
    refine ⟨⟨(i 0).val / 10000, by rw [hN]; omega⟩, flush2_6 _, ?_⟩
    rw [mem_blk2]
    intro a
    match a with
    | ⟨0, _⟩ =>
      show win2_6.index _ (0 : Fin 2) * 10000 ≤ (i 0).val ∧ (i 0).val < win2_6.index _ (0 : Fin 2) * 10000 + 10000
      rw [e60]; dsimp only; omega
    | ⟨1, _⟩ =>
      show win2_6.index _ (1 : Fin 2) * 64 ≤ (i 1).val ∧ (i 1).val < win2_6.index _ (1 : Fin 2) * 64 + 64
      rw [e61]; omega)

end Cert.KernelIdeal.Result

end
-- ==== Proof.Target.lean ====
/-
  The common form of the two programs' results.

  With o the scattered accumulator [200000, 64] and bias, gamma, beta the three [64] rows, write
  s(r, d) = o(r, d) + bias(d).  Both programs end at

      max( ((s(r, d) − M(d)) · rsqrt(V(d) + ε)) · gamma(d) + beta(d), 0 )

  for a per-column mean M and variance V.  The reference takes M(d) = (0 + Σ_r s(r, d)) / 200000 and
  V(d) = (0 + Σ_r (s(r, d) − M(d))²) / 200000; the kernel takes M(d) = (Σ_r s(r, d)) / 200000 and
  V(d) = max((Σ_r s(r, d)²) / 200000 − M(d)², 0).  The means agree outright; the variances agree when every
  s(r, d) is a real number.
-/
import proofs.«116026_j56392920596826_2_alg».proof.Proof.BatchStats
import Idealize.ShloMosaic.PureOps.Ideal
import Idealize.ShloMosaic.PureOps.Ideal.Laws
import Idealize.ShloMosaic.Lib.ValueIdx

noncomputable section

namespace Cert.Target

open Idealize.ShloMosaic Idealize.ShloMosaic.ValueIdx

abbrev Acc : Shape := ⟨2, ![200000, 64]⟩
abbrev Row : Shape := ⟨1, ![64]⟩

/-- s(r, d) = o(r, d) + bias(d). -/
def shifted (o : Acc.Idx → EReal) (x2 : Row.Idx → EReal) (d : Fin 64) (r : Fin 200000) : EReal :=
  o (ix2 r d) + x2 (ix1 d)

/-- The divisor as both programs spell it. -/
def count : EReal := Ideal.ofBits .f32 0x48435000#32

def meanK (o : Acc.Idx → EReal) (x2 : Row.Idx → EReal) (d : Fin 64) : EReal :=
  Ideal.div (∑ r : Fin 200000, shifted o x2 d r) count

def varK (o : Acc.Idx → EReal) (x2 : Row.Idx → EReal) (d : Fin 64) : EReal :=
  max (Ideal.div (∑ r : Fin 200000, shifted o x2 d r * shifted o x2 d r) count - meanK o x2 d * meanK o x2 d)
    (Ideal.ofBits .f32 0x00000000#32)

def meanR (o : Acc.Idx → EReal) (x2 : Row.Idx → EReal) (d : Fin 64) : EReal :=
  Ideal.div (Ideal.ofBits .f32 0x00000000#32 + ∑ r : Fin 200000, shifted o x2 d r) count

def varR (o : Acc.Idx → EReal) (x2 : Row.Idx → EReal) (d : Fin 64) : EReal :=
  Ideal.div (Ideal.ofBits .f32 0x00000000#32
    + ∑ r : Fin 200000, (shifted o x2 d r - meanR o x2 d) * (shifted o x2 d r - meanR o x2 d)) count

/-- Normalize with the column statistics M and V, scale, shift, clamp at zero. -/
def bnRelu (o : Acc.Idx → EReal) (x2 x3 x4 : Row.Idx → EReal) (M V : Fin 64 → EReal) : Acc.Idx → EReal :=
  fun i => max ((((o i + x2 (ix1 (i 1 : Fin 64))) - M (i 1 : Fin 64))
      * Ideal.rsqrt (V (i 1 : Fin 64) + Ideal.ofBits .f32 0x3727C5AC#32)) * x3 (ix1 (i 1 : Fin 64))
      + x4 (ix1 (i 1 : Fin 64))) (Ideal.ofBits .f32 0x00000000#32)

theorem bnRelu_apply (o : Acc.Idx → EReal) (x2 x3 x4 : Row.Idx → EReal) (M V : Fin 64 → EReal) (r : Fin 200000) (d : Fin 64) :
    bnRelu o x2 x3 x4 M V (ix2 r d)
      = max ((((o (ix2 r d) + x2 (ix1 d)) - M d) * Ideal.rsqrt (V d + Ideal.ofBits .f32 0x3727C5AC#32)) * x3 (ix1 d)
          + x4 (ix1 d)) (Ideal.ofBits .f32 0x00000000#32) := rfl

/-- The two means are one number: a sum from a zero initial value is the sum. -/
theorem mean_eq (o : Acc.Idx → EReal) (x2 : Row.Idx → EReal) (d : Fin 64) : meanK o x2 d = meanR o x2 d := by
  unfold meanK meanR
  rw [Ideal.ofBits_zero_f32, zero_add]

/-- The two variances are one number when every s(r, d) is real. -/
theorem var_eq (o : Acc.Idx → EReal) (x2 : Row.Idx → EReal) (d : Fin 64)
    (h : ∀ r : Fin 200000, ∃ y : ℝ, shifted o x2 d r = (y : EReal)) : varK o x2 d = varR o x2 d := by
  unfold varK varR meanR meanK count
  rw [Ideal.ofBits_zero_f32, BatchStats.ofBits_200000]
  exact BatchStats.var_law (fun r : Fin 200000 => shifted o x2 d r) h 200000 (by norm_num)
    (by rw [Fintype.card_fin]; norm_num)

/-- So the two results are one array when every s(r, d) is real. -/
theorem bnRelu_eq (o : Acc.Idx → EReal) (x2 x3 x4 : Row.Idx → EReal)
    (h : ∀ (d : Fin 64) (r : Fin 200000), ∃ y : ℝ, shifted o x2 d r = (y : EReal)) :
    bnRelu o x2 x3 x4 (meanK o x2) (varK o x2) = bnRelu o x2 x3 x4 (meanR o x2) (varR o x2) := by
  have hm : meanK o x2 = meanR o x2 := funext fun d => mean_eq o x2 d
  have hv : varK o x2 = varR o x2 := funext fun d => var_eq o x2 d (h d)
  rw [hm, hv]

end Cert.Target

end
-- ==== Proof.KernelValue.lean ====
/-
  The idealized kernel's result as a function of its arguments.

  The buffer contents at each segment boundary are followed through the program: the first stretch of host
  operations gathers the (format-changed, hence unchanged) features; the first region multiplies them by the
  weight; the second stretch scatter-adds the products onto zeros and reshapes the bias, gamma and beta rows; the
  second region sums the columns of (accumulator + bias) and of its square; the third stretch turns the sums into
  the mean and the clamped "mean of squares minus squared mean"; the third region normalizes.  The host
  operations the kernel shares with the reference are the reference's own stages, so the gathered features, the
  products and the scattered accumulator are stated as those stages of the arguments.
-/
import proofs.«116026_j56392920596826_2_alg».proof.Proof.Gemm
import proofs.«116026_j56392920596826_2_alg».proof.Proof.Stats
import proofs.«116026_j56392920596826_2_alg».proof.Proof.Normalize
import proofs.«116026_j56392920596826_2_alg».proof.Proof.Gen.ReferenceIdeal.Read
import proofs.«116026_j56392920596826_2_alg».proof.Proof.Target
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Region 0's entry and exit -/

/-- The gathered features the first region is entered with are the reference's gather of the features. -/
theorem entry0_gathered (c : Dev nD) : V1 m ρ c main_v8
    = Cert.ReferenceIdeal.Read.val_main_v6 (F := Ideal) (m ((c : Thread nD τ).loc main_arg0)) (m ((c : Thread nD τ).loc main_arg5)) := by
  show StableHlo.after hostOps0 (W0 m ρ c) (Proc.devRef .tc main_v8) = _
  after_results
  rfl

/-- The weight the first region is entered with is the weight argument (a change of float format is the identity). -/
theorem entry0_weight (c : Dev nD) : (V1 m ρ c main_v1 : S27x64x64.Idx → EReal) = m ((c : Thread nD τ).loc main_arg1) := by
  show StableHlo.after hostOps0 (W0 m ρ c) (Proc.devRef .tc main_v1) = _
  after_results
  rfl

/-- The batched product of the gathered features and the weight is the reference's dot_general stage. -/
theorem batchedProduct_eq (x0 : (⟨Cert.ReferenceIdeal.S200000x64, .f32⟩ : BufTy).Contents (Elt Ideal))
    (x1 : (⟨Cert.ReferenceIdeal.S27x64x64, .f32⟩ : BufTy).Contents (Elt Ideal))
    (x5 : (⟨Cert.ReferenceIdeal.S27x100000, .i32⟩ : BufTy).Contents (Elt Ideal)) :
    batchedProduct (Cert.ReferenceIdeal.Read.val_main_v6 (F := Ideal) x0 x5) x1 = Cert.ReferenceIdeal.Read.val_main_v7 (F := Ideal) x0 x1 x5 := by
  funext i
  rw [Cert.ReferenceIdeal.Read.val_main_v7_apply]
  unfold batchedProduct
  refine Finset.sum_congr rfl fun k _ => ?_
  have el : Cert.ReferenceIdeal.Read.lidx_main_v7 i k = ix3 (i 0 : Fin 27) (i 1 : Fin 100000) k :=
    funext fun a => by match a with | ⟨0, _⟩ => rfl | ⟨1, _⟩ => rfl | ⟨2, _⟩ => rfl
  have er : Cert.ReferenceIdeal.Read.ridx_main_v7 i k = ix3 (i 0 : Fin 27) k (i 2 : Fin 64) :=
    funext fun a => by match a with | ⟨0, _⟩ => rfl | ⟨1, _⟩ => rfl | ⟨2, _⟩ => rfl
  exact congrArg₂ (· * ·) (congrArg _ el.symm) (congrArg _ er.symm)

/-- The product array the first region leaves is the reference's dot_general stage of the arguments. -/
theorem exit0_product (c : Dev nD) : W2 m ρ c (Proc.devRef .tc main_v9)
    = Cert.ReferenceIdeal.Read.val_main_v7 (F := Ideal) (m ((c : Thread nD τ).loc main_arg0)) (m ((c : Thread nD τ).loc main_arg1)) (m ((c : Thread nD τ).loc main_arg5)) := by
  refine (W2_arr m ρ c 2).trans ((final0 (V1 m ρ) c).trans ?_)
  rw [entry0_gathered, entry0_weight]
  exact batchedProduct_eq _ _ _

/-- An argument no host operation of the first stretch and no window of the first region writes is as launched at
    the first region's exit. -/
theorem W2_of_arg (c : Dev nD) (b : Ref sig .tc) (hb : ∀ w, Pipeline.arrRef spec0 w ≠ b)
    (hw : ∀ op ∈ (hostOps0 : List (HloOp τ sig (Elt Ideal))), Proc.devRef .tc b ∉ op.writes) :
    W2 m ρ c (Proc.devRef .tc b) = m ((c : Thread nD τ).loc b) :=
  (W2_of_ne m ρ c b hb).trans (StableHlo.after_of_forall_not_mem (b := Proc.devRef .tc b) _ _ hw)

/-- No operation of the first stretch writes an argument. -/
theorem hostOps0_keeps (b : Ref sig .tc)
    (hb : b = main_arg2 ∨ b = main_arg3 ∨ b = main_arg4 ∨ b = main_arg6) :
    ∀ op ∈ (hostOps0 : List (HloOp τ sig (Elt Ideal))), Proc.devRef .tc b ∉ op.writes := by
  refine List.forall_iff_forall_mem.mp ?_
  simp only [hostOps0, List.Forall, StableHlo.nullary_writes, StableHlo.unary_writes, StableHlo.binary_writes,
    StableHlo.ternary_writes, StableHlo.reshape_writes, Finset.mem_singleton]
  rcases hb with rfl | rfl | rfl | rfl <;>
  · repeat' apply And.intro
    all_goals exact StableHlo.devRef_ne_of_ne (by decide)

theorem W2_arg2 (c : Dev nD) : W2 m ρ c (Proc.devRef .tc main_arg2) = m ((c : Thread nD τ).loc main_arg2) :=
  W2_of_arg m ρ c main_arg2 (by decide) (hostOps0_keeps main_arg2 (.inl rfl))
theorem W2_arg3 (c : Dev nD) : W2 m ρ c (Proc.devRef .tc main_arg3) = m ((c : Thread nD τ).loc main_arg3) :=
  W2_of_arg m ρ c main_arg3 (by decide) (hostOps0_keeps main_arg3 (.inr (.inl rfl)))
theorem W2_arg4 (c : Dev nD) : W2 m ρ c (Proc.devRef .tc main_arg4) = m ((c : Thread nD τ).loc main_arg4) :=
  W2_of_arg m ρ c main_arg4 (by decide) (hostOps0_keeps main_arg4 (.inr (.inr (.inl rfl))))
theorem W2_arg6 (c : Dev nD) : W2 m ρ c (Proc.devRef .tc main_arg6) = m ((c : Thread nD τ).loc main_arg6) :=
  W2_of_arg m ρ c main_arg6 (by decide) (hostOps0_keeps main_arg6 (.inr (.inr (.inr rfl))))

/-! ## Region 1's entry and exit -/

/-- The accumulator the second region is entered with is the reference's scatter-add stage of the arguments. -/
theorem entry1_acc (c : Dev nD) : V3 m ρ c main_v19
    = Cert.ReferenceIdeal.Read.val_main_v17 (F := Ideal) (m ((c : Thread nD τ).loc main_arg0)) (m ((c : Thread nD τ).loc main_arg1))
        (m ((c : Thread nD τ).loc main_arg5)) (m ((c : Thread nD τ).loc main_arg6)) := by
  show StableHlo.after hostOps1 (W2 m ρ c) (Proc.devRef .tc main_v19) = _
  after_results
  rw [exit0_product, W2_arg6]
  rfl

/-- The [1, 64] rows the second stretch reshapes the bias, gamma and beta into, read at a column. -/
theorem entry1_bias (c : Dev nD) (u : Fin 1) (d : Fin 64) :
    (V3 m ρ c main_v20 : S1x64.Idx → EReal) (ix2 u d) = m ((c : Thread nD τ).loc main_arg2) (ix1 d) := by
  show StableHlo.after hostOps1 (W2 m ρ c) (Proc.devRef .tc main_v20) (ix2 u d) = _
  after_results
  rw [W2_arg2]
  exact shapeCast_a_1a_apply (m ((c : Thread nD τ).loc main_arg2)) shapeCasts_S64_S1x64 u d

theorem entry1_gamma (c : Dev nD) (u : Fin 1) (d : Fin 64) :
    (V3 m ρ c main_v21 : S1x64.Idx → EReal) (ix2 u d) = m ((c : Thread nD τ).loc main_arg3) (ix1 d) := by
  show StableHlo.after hostOps1 (W2 m ρ c) (Proc.devRef .tc main_v21) (ix2 u d) = _
  after_results
  rw [W2_arg3]
  exact shapeCast_a_1a_apply (m ((c : Thread nD τ).loc main_arg3)) shapeCasts_S64_S1x64 u d

theorem entry1_beta (c : Dev nD) (u : Fin 1) (d : Fin 64) :
    (V3 m ρ c main_v22 : S1x64.Idx → EReal) (ix2 u d) = m ((c : Thread nD τ).loc main_arg4) (ix1 d) := by
  show StableHlo.after hostOps1 (W2 m ρ c) (Proc.devRef .tc main_v22) (ix2 u d) = _
  after_results
  rw [W2_arg4]
  exact shapeCast_a_1a_apply (m ((c : Thread nD τ).loc main_arg4)) shapeCasts_S64_S1x64 u d

/-- The two rows the second region leaves: the column sums of (accumulator + bias) and of its square. -/
theorem exit1_sum (c : Dev nD) : W4 m ρ c (Proc.devRef .tc main_v23_0)
    = fun i : S1x64.Idx => colSum (V3 m ρ c main_v19) (V3 m ρ c main_v20) (i 1 : Fin 64) :=
  (W4_arr m ρ c 2).trans (final1_2 (V3 m ρ) c)

theorem exit1_sumsq (c : Dev nD) : W4 m ρ c (Proc.devRef .tc main_v23_1)
    = fun i : S1x64.Idx => colSumSq (V3 m ρ c main_v19) (V3 m ρ c main_v20) (i 1 : Fin 64) :=
  (W4_arr m ρ c 3).trans (final1_3 (V3 m ρ) c)

/-- The second region's inputs and the rows it does not touch leave it as they entered. -/
theorem exit1_acc (c : Dev nD) : W4 m ρ c (Proc.devRef .tc main_v19) = V3 m ρ c main_v19 :=
  (W4_arr m ρ c 0).trans (((dat1 (V3 m ρ) c).arrAt_in 0 rfl _).trans (A_eq1 (V3 m ρ) c 0))
theorem exit1_bias (c : Dev nD) : W4 m ρ c (Proc.devRef .tc main_v20) = V3 m ρ c main_v20 :=
  (W4_arr m ρ c 1).trans (((dat1 (V3 m ρ) c).arrAt_in 1 rfl _).trans (A_eq1 (V3 m ρ) c 1))
theorem exit1_gamma (c : Dev nD) : W4 m ρ c (Proc.devRef .tc main_v21) = V3 m ρ c main_v21 :=
  W4_of_ne m ρ c main_v21 (by decide)
theorem exit1_beta (c : Dev nD) : W4 m ρ c (Proc.devRef .tc main_v22) = V3 m ρ c main_v22 :=
  W4_of_ne m ρ c main_v22 (by decide)

/-! ## Region 2's entry and exit -/

theorem entry2_acc (c : Dev nD) : V5 m ρ c main_v19 = V3 m ρ c main_v19 := by
  show StableHlo.after hostOps2 (W4 m ρ c) (Proc.devRef .tc main_v19) = _
  after_results
  exact exit1_acc m ρ c
theorem entry2_bias (c : Dev nD) : V5 m ρ c main_v20 = V3 m ρ c main_v20 := by
  show StableHlo.after hostOps2 (W4 m ρ c) (Proc.devRef .tc main_v20) = _
  after_results
  exact exit1_bias m ρ c
theorem entry2_gamma (c : Dev nD) : V5 m ρ c main_v21 = V3 m ρ c main_v21 := by
  show StableHlo.after hostOps2 (W4 m ρ c) (Proc.devRef .tc main_v21) = _
  after_results
  exact exit1_gamma m ρ c
theorem entry2_beta (c : Dev nD) : V5 m ρ c main_v22 = V3 m ρ c main_v22 := by
  show StableHlo.after hostOps2 (W4 m ρ c) (Proc.devRef .tc main_v22) = _
  after_results
  exact exit1_beta m ρ c

/-- The mean row: the sum row divided by the count. -/
theorem entry2_mean (c : Dev nD) (u : Fin 1) (d : Fin 64) :
    (V5 m ρ c main_v25 : S1x64.Idx → EReal) (ix2 u d)
      = Ideal.div ((W4 m ρ c (Proc.devRef .tc main_v23_0) : S1x64.Idx → EReal) (ix2 u d)) (Ideal.ofBits .f32 0x48435000#32) := by
  show StableHlo.after hostOps2 (W4 m ρ c) (Proc.devRef .tc main_v25) (ix2 u d) = _
  after_results
  rfl

/-- The variance row: the sum-of-squares row divided by the count, minus the squared mean, clamped at zero. -/
theorem entry2_var (c : Dev nD) (u : Fin 1) (d : Fin 64) :
    (V5 m ρ c main_v31 : S1x64.Idx → EReal) (ix2 u d)
      = max (Ideal.div ((W4 m ρ c (Proc.devRef .tc main_v23_1) : S1x64.Idx → EReal) (ix2 u d)) (Ideal.ofBits .f32 0x48435000#32)
          - Ideal.div ((W4 m ρ c (Proc.devRef .tc main_v23_0) : S1x64.Idx → EReal) (ix2 u d)) (Ideal.ofBits .f32 0x48435000#32)
            * Ideal.div ((W4 m ρ c (Proc.devRef .tc main_v23_0) : S1x64.Idx → EReal) (ix2 u d)) (Ideal.ofBits .f32 0x48435000#32))
        (Ideal.ofBits .f32 0x00000000#32) := by
  show StableHlo.after hostOps2 (W4 m ρ c) (Proc.devRef .tc main_v31) (ix2 u d) = _
  after_results
  rfl

/-! ## The result -/

section Result
open Cert.Target

/-- The column sums the second region leaves are the sums of s(r, d) = accumulator(r, d) + bias(d). -/
theorem colSum_eq (c : Dev nD) (d : Fin 64) : colSum (V3 m ρ c main_v19) (V3 m ρ c main_v20) d
    = ∑ r : Fin 200000, shifted (Cert.ReferenceIdeal.Read.val_main_v17 (F := Ideal) (m ((c : Thread nD τ).loc main_arg0))
        (m ((c : Thread nD τ).loc main_arg1)) (m ((c : Thread nD τ).loc main_arg5)) (m ((c : Thread nD τ).loc main_arg6)))
        (m ((c : Thread nD τ).loc main_arg2)) d r := by
  rw [colSum_def]
  refine Finset.sum_congr rfl fun r _ => ?_
  rw [entry1_acc, entry1_bias]
  rfl

theorem colSumSq_eq (c : Dev nD) (d : Fin 64) : colSumSq (V3 m ρ c main_v19) (V3 m ρ c main_v20) d
    = ∑ r : Fin 200000, shifted (Cert.ReferenceIdeal.Read.val_main_v17 (F := Ideal) (m ((c : Thread nD τ).loc main_arg0))
        (m ((c : Thread nD τ).loc main_arg1)) (m ((c : Thread nD τ).loc main_arg5)) (m ((c : Thread nD τ).loc main_arg6)))
        (m ((c : Thread nD τ).loc main_arg2)) d r
      * shifted (Cert.ReferenceIdeal.Read.val_main_v17 (F := Ideal) (m ((c : Thread nD τ).loc main_arg0))
        (m ((c : Thread nD τ).loc main_arg1)) (m ((c : Thread nD τ).loc main_arg5)) (m ((c : Thread nD τ).loc main_arg6)))
        (m ((c : Thread nD τ).loc main_arg2)) d r := by
  rw [colSumSq_def]
  refine Finset.sum_congr rfl fun r _ => ?_
  rw [entry1_acc, entry1_bias]
  rfl

/-- THE KERNEL'S RESULT is the common form with the kernel's mean and variance. -/
theorem result_eq (c : Dev nD) : W6 m ρ c (Proc.devRef .tc main_v32)
    = bnRelu (Cert.ReferenceIdeal.Read.val_main_v17 (F := Ideal) (m ((c : Thread nD τ).loc main_arg0))
        (m ((c : Thread nD τ).loc main_arg1)) (m ((c : Thread nD τ).loc main_arg5)) (m ((c : Thread nD τ).loc main_arg6)))
        (m ((c : Thread nD τ).loc main_arg2)) (m ((c : Thread nD τ).loc main_arg3)) (m ((c : Thread nD τ).loc main_arg4))
        (meanK (Cert.ReferenceIdeal.Read.val_main_v17 (F := Ideal) (m ((c : Thread nD τ).loc main_arg0))
          (m ((c : Thread nD τ).loc main_arg1)) (m ((c : Thread nD τ).loc main_arg5)) (m ((c : Thread nD τ).loc main_arg6)))
          (m ((c : Thread nD τ).loc main_arg2)))
        (varK (Cert.ReferenceIdeal.Read.val_main_v17 (F := Ideal) (m ((c : Thread nD τ).loc main_arg0))
          (m ((c : Thread nD τ).loc main_arg1)) (m ((c : Thread nD τ).loc main_arg5)) (m ((c : Thread nD τ).loc main_arg6)))
          (m ((c : Thread nD τ).loc main_arg2))) := by
  refine (W6_arr m ρ c 6).trans ((final2 (V5 m ρ) c).trans ?_)
  funext i
  obtain ⟨r, d, rfl⟩ : ∃ (r : Fin 200000) (d : Fin 64), i = ix2 r d := ⟨i 0, i 1, eq_ix2 i⟩
  have hmean : (V5 m ρ c main_v25 : S1x64.Idx → EReal) (ix2 (0 : Fin 1) d) = meanK (Cert.ReferenceIdeal.Read.val_main_v17 (F := Ideal) (m ((c : Thread nD τ).loc main_arg0))
          (m ((c : Thread nD τ).loc main_arg1)) (m ((c : Thread nD τ).loc main_arg5)) (m ((c : Thread nD τ).loc main_arg6)))
          (m ((c : Thread nD τ).loc main_arg2)) d := by
    rw [entry2_mean, exit1_sum]
    unfold meanK Cert.Target.count
    rw [← colSum_eq]
  have hvar : (V5 m ρ c main_v31 : S1x64.Idx → EReal) (ix2 (0 : Fin 1) d) = varK (Cert.ReferenceIdeal.Read.val_main_v17 (F := Ideal) (m ((c : Thread nD τ).loc main_arg0))
          (m ((c : Thread nD τ).loc main_arg1)) (m ((c : Thread nD τ).loc main_arg5)) (m ((c : Thread nD τ).loc main_arg6)))
          (m ((c : Thread nD τ).loc main_arg2)) d := by
    rw [entry2_var, exit1_sum, exit1_sumsq]
    unfold varK meanK Cert.Target.count
    rw [← colSum_eq, ← colSumSq_eq]
  have hacc : (V5 m ρ c main_v19 : S200000x64.Idx → EReal) (ix2 r d) = Cert.ReferenceIdeal.Read.val_main_v17 (F := Ideal) (m ((c : Thread nD τ).loc main_arg0))
          (m ((c : Thread nD τ).loc main_arg1)) (m ((c : Thread nD τ).loc main_arg5)) (m ((c : Thread nD τ).loc main_arg6)) (ix2 r d) := by
    rw [entry2_acc, entry1_acc]
  have hb : (V5 m ρ c main_v20 : S1x64.Idx → EReal) (ix2 (0 : Fin 1) d) = m ((c : Thread nD τ).loc main_arg2) (ix1 d) := by
    rw [entry2_bias, entry1_bias]
  have hg : (V5 m ρ c main_v21 : S1x64.Idx → EReal) (ix2 (0 : Fin 1) d) = m ((c : Thread nD τ).loc main_arg3) (ix1 d) := by
    rw [entry2_gamma, entry1_gamma]
  have hbe : (V5 m ρ c main_v22 : S1x64.Idx → EReal) (ix2 (0 : Fin 1) d) = m ((c : Thread nD τ).loc main_arg4) (ix1 d) := by
    rw [entry2_beta, entry1_beta]
  rw [normRelu_apply, bnRelu_apply, hacc, hb, hmean, hvar, hg, hbe]

end Result

end Cert.KernelIdeal.Result

end
-- ==== Proof.RefValue.lean ====
/-
  The reference's result as the common form.

  The reference adds the bias to the scattered accumulator, takes each column's mean (a sum from a zero initial
  value, divided by the count), the mean of the squared deviations the same way, and normalizes, scales, shifts and
  clamps.  Each stage is read at an index from the stage before; the rows that are broadcast along the 200000 rows
  are read at the column.
-/
import proofs.«116026_j56392920596826_2_alg».proof.Proof.Gen.ReferenceIdeal.Read
import proofs.«116026_j56392920596826_2_alg».proof.Proof.Target
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.ValueIdx
open Cert.Target

variable (x0 : (⟨S200000x64, .f32⟩ : BufTy).Contents (Elt Ideal)) (x1 : (⟨S27x64x64, .f32⟩ : BufTy).Contents (Elt Ideal))
  (x2 x3 x4 : (⟨S64, .f32⟩ : BufTy).Contents (Elt Ideal)) (x5 x6 : (⟨S27x100000, .i32⟩ : BufTy).Contents (Elt Ideal))

theorem bias_at (r : Fin 200000) (d : Fin 64) : val_main_v19 (F := Ideal) x2 (ix2 r d) = x2 (ix1 d) := by
  rw [val_main_v19_apply, val_main_v18_apply]
  exact congrArg x2 (funext fun a => by match a with | ⟨0, _⟩ => rfl)

theorem gamma_at (r : Fin 200000) (d : Fin 64) : val_main_v41 (F := Ideal) x3 (ix2 r d) = x3 (ix1 d) := by
  rw [val_main_v41_apply, val_main_v40_apply]
  exact congrArg x3 (funext fun a => by match a with | ⟨0, _⟩ => rfl)

theorem beta_at (r : Fin 200000) (d : Fin 64) : val_main_v44 (F := Ideal) x4 (ix2 r d) = x4 (ix1 d) := by
  rw [val_main_v44_apply, val_main_v43_apply]
  exact congrArg x4 (funext fun a => by match a with | ⟨0, _⟩ => rfl)

/-- The biased accumulator at (r, d). -/
theorem shifted_at (r : Fin 200000) (d : Fin 64) :
    val_main_v20 (F := Ideal) x0 x1 x2 x5 x6 (ix2 r d) = shifted (val_main_v17 (F := Ideal) x0 x1 x5 x6) x2 d r := by
  rw [val_main_v20_apply, bias_at]
  rfl

/-- The column mean. -/
theorem mean_at (d : Fin 64) :
    val_main_v23 (F := Ideal) x0 x1 x2 x5 x6 (ix1 d) = meanR (val_main_v17 (F := Ideal) x0 x1 x5 x6) x2 d := by
  rw [val_main_v23_apply, val_main_v21_apply, val_main_v22_apply, val_main_cst_4_apply, val_main_cst_3_apply]
  unfold meanR Cert.Target.count
  refine congrArg₂ Ideal.div (congrArg (_ + ·) (Finset.sum_congr rfl fun k _ => ?_)) rfl
  have e : idx_main_v21 (ix1 d) k = ix2 k d := funext fun a => by match a with | ⟨0, _⟩ => rfl | ⟨1, _⟩ => rfl
  rw [e, shifted_at]

theorem mean25_at (r : Fin 200000) (d : Fin 64) :
    val_main_v25 (F := Ideal) x0 x1 x2 x5 x6 (ix2 r d) = meanR (val_main_v17 (F := Ideal) x0 x1 x5 x6) x2 d := by
  rw [val_main_v25_apply, val_main_v24_apply]
  have e : idx_main_v24 (idx_main_v25 (ix2 r d)) = ix1 d := funext fun a => by match a with | ⟨0, _⟩ => rfl
  rw [e, mean_at]

theorem mean32_at (r : Fin 200000) (d : Fin 64) :
    val_main_v32 (F := Ideal) x0 x1 x2 x5 x6 (ix2 r d) = meanR (val_main_v17 (F := Ideal) x0 x1 x5 x6) x2 d := by
  rw [val_main_v32_apply, val_main_v31_apply]
  have e : idx_main_v31 (idx_main_v32 (ix2 r d)) = ix1 d := funext fun a => by match a with | ⟨0, _⟩ => rfl
  rw [e, mean_at]

/-- The column variance. -/
theorem var_at (d : Fin 64) :
    val_main_v30 (F := Ideal) x0 x1 x2 x5 x6 (ix1 d) = varR (val_main_v17 (F := Ideal) x0 x1 x5 x6) x2 d := by
  rw [val_main_v30_apply, val_main_v28_apply, val_main_v29_apply, val_main_cst_6_apply, val_main_cst_5_apply]
  unfold varR Cert.Target.count
  refine congrArg₂ Ideal.div (congrArg (_ + ·) (Finset.sum_congr rfl fun k _ => ?_)) rfl
  have e : idx_main_v28 (ix1 d) k = ix2 k d := funext fun a => by match a with | ⟨0, _⟩ => rfl | ⟨1, _⟩ => rfl
  rw [e, val_main_v27_apply, val_main_v26_apply, shifted_at, mean25_at]
  rfl

/-- The reciprocal standard deviation, broadcast along the rows. -/
theorem rstd_at (r : Fin 200000) (d : Fin 64) :
    val_main_v38 (F := Ideal) x0 x1 x2 x5 x6 (ix2 r d)
      = Ideal.rsqrt (varR (val_main_v17 (F := Ideal) x0 x1 x5 x6) x2 d + Ideal.ofBits .f32 0x3727C5AC#32) := by
  rw [val_main_v38_apply, val_main_v37_apply]
  have e : idx_main_v37 (idx_main_v38 (ix2 r d)) = ix1 d := funext fun a => by match a with | ⟨0, _⟩ => rfl
  rw [e, val_main_v36_apply, val_main_v35_apply, var_at, val_main_v34_apply, val_main_cst_7_apply]
  rfl

/-- THE REFERENCE'S RESULT is the common form with the reference's mean and variance. -/
theorem result_eq : val_main_v47 (F := Ideal) x0 x1 x2 x3 x4 x5 x6
    = bnRelu (val_main_v17 (F := Ideal) x0 x1 x5 x6) x2 x3 x4 (meanR (val_main_v17 (F := Ideal) x0 x1 x5 x6) x2)
        (varR (val_main_v17 (F := Ideal) x0 x1 x5 x6) x2) := by
  funext i
  obtain ⟨r, d, rfl⟩ : ∃ (r : Fin 200000) (d : Fin 64), i = ix2 r d := ⟨i 0, i 1, eq_ix2 i⟩
  rw [val_main_v47_apply, val_main_v45_apply, val_main_v42_apply, val_main_v39_apply, val_main_v33_apply, shifted_at, mean32_at,
    rstd_at, gamma_at, beta_at, val_main_v46_apply, val_main_cst_8_apply]
  rfl

end Cert.ReferenceIdeal.RefValue

end
-- ==== Proof.Finite.lean ====
/-
  Finiteness.

  The precondition says that every element of the five float inputs has absolute value below +∞; read at the
  extended reals this makes every element a real number.  Real numbers are closed under the operations the
  convolution uses (a gather copies elements, a product sums products, a scatter-add sums updates onto zeros),
  so every element of the scattered accumulator is real, and so is its sum with the bias.
-/
import proofs.«116026_j56392920596826_2_alg».proof.Proof.Gen.ReferenceIdeal.Read
import proofs.«116026_j56392920596826_2_alg».proof.Proof.Gen.Pre_finite_inputs
import proofs.«116026_j56392920596826_2_alg».proof.Proof.BatchStats
import Idealize.ShloMosaic.Lib.ReduceAll
import Idealize.ShloMosaic.Lib.ValueIdx
import Idealize.ShloMosaic.PureOps.Ideal.Laws

set_option maxRecDepth 16384

noncomputable section

namespace Cert.Finite

open Idealize.ShloMosaic Idealize.ShloMosaic.ValueIdx

/-- The float word 0x7F800000 denotes +∞. -/
theorem ofBits_inf : Ideal.ofBits .f32 0x7F800000#32 = ⊤ := by
  simp [Ideal.ofBits, Ideal.ieee]

/-- An extended real whose absolute value is below +∞ is a real. -/
theorem real_of_abs_lt (a : EReal) (h : Ideal.cmp .olt (max a (-a)) (Ideal.ofBits .f32 0x7F800000#32) = 1#1) :
    ∃ y : ℝ, a = (y : EReal) := by
  rw [ofBits_inf] at h
  unfold Ideal.cmp at h
  have h' : max a (-a) < ⊤ := by
    by_contra hc
    simp [hc] at h
  induction a using EReal.rec with
  | bot => simp at h'
  | coe y => exact ⟨y, rfl⟩
  | top => simp at h'

/-- A finite sum of reals is a real. -/
theorem sum_real {ι : Type*} (s : Finset ι) (f : ι → EReal) (hf : ∀ i ∈ s, ∃ y : ℝ, f i = (y : EReal)) :
    ∃ y : ℝ, ∑ i ∈ s, f i = (y : EReal) := by
  classical
  induction s using Finset.induction_on with
  | empty => exact ⟨0, by simp⟩
  | insert a s ha ih =>
    obtain ⟨y, hy⟩ := hf a (Finset.mem_insert_self a s)
    obtain ⟨z, hz⟩ := ih fun i hi => hf i (Finset.mem_insert_of_mem hi)
    exact ⟨y + z, by rw [Finset.sum_insert ha, hy, hz, EReal.coe_add]⟩

/-- A scatter-add of real updates onto a real operand is real, element by element (whatever the indices). -/
theorem scatterAdd_real {s si su : Shape} (d : ScatterDims s si su) {w : Nat} (x : s.Idx → EReal) (idx : IVec si w)
    (upd : su.Idx → EReal) (hx : ∀ i, ∃ y : ℝ, x i = (y : EReal)) (hu : ∀ j, ∃ y : ℝ, upd j = (y : EReal)) (i : s.Idx) :
    ∃ y : ℝ, Ideal.hostScatterAdd d x idx upd i = (y : EReal) := by
  unfold Ideal.hostScatterAdd
  obtain ⟨a, ha⟩ := hx i
  obtain ⟨z, hz⟩ := sum_real (Finset.univ.filter fun j => d.resultIdx? j idx = some i) upd (fun j _ => hu j)
  exact ⟨a + z, by rw [ha, hz, EReal.coe_add]⟩

/-- The same for the host's scatter-add as the programs spell it. -/
theorem scatterAdd_real' {s si su : Shape} (d : ScatterDims s si su) {w : Nat} (x : FVec Ideal s .f32) (idx : IVec si w)
    (upd : FVec Ideal su .f32) (hx : ∀ i, ∃ y : ℝ, x i = (y : EReal)) (hu : ∀ j, ∃ y : ℝ, upd j = (y : EReal)) (i : s.Idx) :
    ∃ y : ℝ, Host.scatterAdd d x idx upd i = (y : EReal) :=
  scatterAdd_real d x idx upd hx hu i

instance : Subsingleton Cert.Pre_finite_inputs.S_.Idx := ⟨fun a b => funext fun d => d.elim0⟩

/-- The precondition, read: every element of the features, the weight and the bias is a real. -/
theorem inputs_real (x0 : FVec Ideal Cert.Pre_finite_inputs.S200000x64 .f32) (x1 : FVec Ideal Cert.Pre_finite_inputs.S27x64x64 .f32)
    (x2 x3 x4 : FVec Ideal Cert.Pre_finite_inputs.S64 .f32) (x5 x6 : IVec Cert.Pre_finite_inputs.S27x100000 32)
    (h : Cert.Pre_finite_inputs.fn (F := Ideal) x0 x1 x2 x3 x4 x5 x6 = fun _ => 1#1) :
    (∀ i, ∃ y : ℝ, x0 i = (y : EReal)) ∧ (∀ i, ∃ y : ℝ, x1 i = (y : EReal)) ∧ (∀ i, ∃ y : ℝ, x2 i = (y : EReal)) := by
  have h0 := congrFun h ix0
  dsimp only [Cert.Pre_finite_inputs.fn, Cert.Pre_finite_inputs.fn_part1] at h0
  obtain ⟨h1, -⟩ := IntOp.andi_eq_one.mp h0
  obtain ⟨h2, -⟩ := IntOp.andi_eq_one.mp h1
  obtain ⟨h3, hC⟩ := IntOp.andi_eq_one.mp h2
  obtain ⟨hA, hB⟩ := IntOp.andi_eq_one.mp h3
  have eA : ∀ i, Ideal.cmp .olt (max (x0 i) (-(x0 i))) (Ideal.ofBits .f32 0x7F800000#32) = 1#1 :=
    fun i => Host.reduce_andi_all _ _ _ _ ix0 hA i
  have eB : ∀ i, Ideal.cmp .olt (max (x1 i) (-(x1 i))) (Ideal.ofBits .f32 0x7F800000#32) = 1#1 :=
    fun i => Host.reduce_andi_all _ _ _ _ ix0 hB i
  have eC : ∀ i, Ideal.cmp .olt (max (x2 i) (-(x2 i))) (Ideal.ofBits .f32 0x7F800000#32) = 1#1 :=
    fun i => Host.reduce_andi_all _ _ _ _ ix0 hC i
  exact ⟨fun i => real_of_abs_lt (x0 i) (eA i), fun i => real_of_abs_lt (x1 i) (eB i), fun i => real_of_abs_lt (x2 i) (eC i)⟩

section Accumulator
open Cert.ReferenceIdeal Cert.ReferenceIdeal.Read

/-- Every element of the scattered accumulator is a real, when the features and the weight are. -/
theorem acc_real (x0 : (⟨S200000x64, .f32⟩ : BufTy).Contents (Elt Ideal)) (x1 : (⟨S27x64x64, .f32⟩ : BufTy).Contents (Elt Ideal))
    (x5 x6 : (⟨S27x100000, .i32⟩ : BufTy).Contents (Elt Ideal))
    (h0 : ∀ i, ∃ y : ℝ, x0 i = (y : EReal)) (h1 : ∀ i, ∃ y : ℝ, x1 i = (y : EReal)) (i : S200000x64.Idx) :
    ∃ y : ℝ, val_main_v17 (F := Ideal) x0 x1 x5 x6 i = (y : EReal) := by
  have hprod : ∀ j, ∃ y : ℝ, val_main_v7 (F := Ideal) x0 x1 x5 j = (y : EReal) := fun j => by
    rw [val_main_v7_apply]
    refine sum_real _ _ fun k _ => ?_
    obtain ⟨a, ha⟩ : ∃ a : ℝ, val_main_v6 (F := Ideal) x0 x5 (lidx_main_v7 j k) = (a : EReal) := h0 _
    obtain ⟨b, hb⟩ := h1 (ridx_main_v7 j k)
    exact ⟨a * b, by rw [ha, hb, EReal.coe_mul]⟩
  have hzero : ∀ i', ∃ y : ℝ, val_main_v8 (F := Ideal) i' = (y : EReal) := fun i' =>
    ⟨0, by rw [val_main_v8_apply, val_main_cst_apply, Ideal.ofBits_def, Ideal.ofBits_zero_f32]; exact EReal.coe_zero.symm⟩
  have hupd : ∀ j, ∃ y : ℝ, val_main_v10 (F := Ideal) x0 x1 x5 j = (y : EReal) := fun j => by
    rw [val_main_v10_apply]; exact hprod _
  unfold val_main_v17
  exact scatterAdd_real' scatter_S200000x64_S2700000x1_S2700000x64_1_0_0_1 (val_main_v8 (F := Ideal)) (val_main_v16 (F := Ideal) x6)
    (val_main_v10 (F := Ideal) x0 x1 x5) hzero hupd i

end Accumulator

end Cert.Finite

end
-- ==== Proof.lean ====
/-
  The certificate of a sparse convolution block: gather, per-offset matrix product, scatter-add, batch
  normalization with batch statistics, ReLU — a three-region kernel against its plain reference.

  Both programs gather the same feature rows, form the same products (a matrix product into a zero accumulator
  and a batched dot are one sum over the extended reals; changes of float format are the identity there) and
  scatter-add them onto zeros.  They differ in the variance: the reference averages the squared deviations from
  the mean, the kernel subtracts the squared mean from the mean of the squares and clamps at zero.  For real
  numbers these agree; the inputs are finite by the precondition, and gathering, multiplying, summing and
  scatter-adding keep elements real.  The three frames are the programs' generated runs; the idealization rewrote
  nothing.
-/
import proofs.«116026_j56392920596826_2_alg».proof.Defs
import proofs.«116026_j56392920596826_2_alg».proof.Proof.Gen.Kernel
import proofs.«116026_j56392920596826_2_alg».proof.Proof.Gen.Kernel.Skeleton
import proofs.«116026_j56392920596826_2_alg».proof.Proof.Gen.Kernel.Launch
import proofs.«116026_j56392920596826_2_alg».proof.Proof.Gen.Kernel.Points
import proofs.«116026_j56392920596826_2_alg».proof.Proof.Gen.Kernel.Frame
import proofs.«116026_j56392920596826_2_alg».proof.Proof.Gen.KernelIdeal
import proofs.«116026_j56392920596826_2_alg».proof.Proof.Gen.KernelIdeal.Skeleton
import proofs.«116026_j56392920596826_2_alg».proof.Proof.Gen.KernelIdeal.Launch
import proofs.«116026_j56392920596826_2_alg».proof.Proof.Gen.KernelIdeal.Points
import proofs.«116026_j56392920596826_2_alg».proof.Proof.Gen.KernelIdeal.Frame
import proofs.«116026_j56392920596826_2_alg».proof.Proof.Gen.ReferenceIdeal
import proofs.«116026_j56392920596826_2_alg».proof.Proof.Gen.ReferenceIdeal.Run
import proofs.«116026_j56392920596826_2_alg».proof.Proof.Gen.ReferenceIdeal.Read
import proofs.«116026_j56392920596826_2_alg».proof.Proof.Gen.Pre_finite_inputs
import proofs.«116026_j56392920596826_2_alg».proof.Proof.KernelRun
import proofs.«116026_j56392920596826_2_alg».proof.Proof.KernelValue
import proofs.«116026_j56392920596826_2_alg».proof.Proof.RefValue
import proofs.«116026_j56392920596826_2_alg».proof.Proof.Finite
import proofs.«116026_j56392920596826_2_alg».proof.Proof.Target
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories agreeing on the arguments, the two idealized programs end with one result: the common form
    with the kernel's statistics, which are the reference's because every biased accumulator element is real. -/
theorem algebraic : Cert.algebraic_KernelIdeal_ReferenceIdeal := by
  intro m ρ m' ρ' hpre hagree
  refine ⟨fun c => Cert.KernelIdeal.Gen.W6 m ρ c (Proc.devRef .tc Cert.KernelIdeal.main_v32),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  show Cert.ReferenceIdeal.Value.res_main_v47 m' c = Cert.KernelIdeal.Gen.W6 m ρ c (Proc.devRef .tc Cert.KernelIdeal.main_v32)
  rw [Cert.ReferenceIdeal.Read.val_main_v47_eq, Cert.ReferenceIdeal.RefValue.result_eq, Cert.KernelIdeal.Result.result_eq,
    a0, a1, a2, a3, a4, a5, a6]
  refine (Cert.Target.bnRelu_eq _ _ _ _ fun d r => ?_).symm
  obtain ⟨f0, f1, f2⟩ := Cert.Finite.inputs_real _ _ _ _ _ _ _ (hpre c)
  obtain ⟨y, hy⟩ := Cert.Finite.acc_real _ _ _ _ f0 f1 (ix2 r d)
  obtain ⟨z, hz⟩ := f2 (ix1 d)
  exact ⟨y + z, by unfold Cert.Target.shifted; rw [hy, hz, EReal.coe_add]⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
